-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40x128 .f32) (main_arg13 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S40x128 .f32 := Host.absf main_arg12
  let main_cst_20 : FVec F S_ .f32 := constant S_ .f32 0x7F800000#32
  let main_v55 : FVec F S40x128 .f32 := broadcastInDim S40x128 ![] bcast_S_S40x128 main_cst_20
  let main_v56 : IVec S40x128 1 := cmpf .olt main_v54 main_v55
  let main_c_21 : IVec S_ 1 := constantI S_ 1 1#1
  let main_v57 : IVec S_ 1 := (fun x v => Host.reduce IntOp.andi x v reducesTo_S40x128_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S40x128 .f32) (main_arg13 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S40x128 .f32) (main_arg13 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S40x128 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 72
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S40x128, .f32⟩
  | .hbm, ⟨13, _⟩ => ⟨S40, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000x1, .f32⟩
  | .hbm, ⟨20, _⟩ => ⟨S_, .f32⟩
  | .hbm, ⟨21, _⟩ => ⟨S50000x1, .f32⟩
  | .hbm, ⟨22, _⟩ => ⟨S800000x1, .i32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S128x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S128x128, .f32⟩
  | .hbm, ⟨68, _⟩ => ⟨S128x40, .f32⟩
  | .hbm, ⟨69, _⟩ => ⟨S1x128, .f32⟩
  | .hbm, ⟨70, _⟩ => ⟨S1x40, .f32⟩
  | .hbm, ⟨71, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000 : Shape := ⟨1, ![50000]⟩
abbrev S128x40 : Shape := ⟨2, ![128, 40]⟩
abbrev S50000x40 : Shape := ⟨2, ![50000, 40]⟩
abbrev S1x40 : Shape := ⟨2, ![1, 40]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S40x128, .f32⟩
  | 13 => ⟨S40, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S_, .f32⟩
  | 32 => ⟨S800000x1, .f32⟩
  | 33 => ⟨S_, .f32⟩
  | 34 => ⟨S50000x1, .f32⟩
  | 35 => ⟨S800000x1, .i32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S50000, .f32⟩
  | 56 => ⟨S50000x1, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S800000x1, .f32⟩
  | 81 => ⟨S_, .f32⟩
  | 82 => ⟨S50000x1, .f32⟩
  | 83 => ⟨S800000x1, .i32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S128x128, .f32⟩
  | 91 => ⟨S50000x128, .f32⟩
  | 92 => ⟨S1x128, .f32⟩
  | 93 => ⟨S50000x128, .f32⟩
  | 94 => ⟨S50000x128, .f32⟩
  | 95 => ⟨S128x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S50000, .f32⟩
  | 104 => ⟨S50000x1, .f32⟩
  | 105 => ⟨S50000x1, .f32⟩
  | 106 => ⟨S_, .f32⟩
  | 107 => ⟨S50000x1, .f32⟩
  | 108 => ⟨S50000x1, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S128x128, .f32⟩
  | 115 => ⟨S50000x128, .f32⟩
  | 116 => ⟨S1x128, .f32⟩
  | 117 => ⟨S50000x128, .f32⟩
  | 118 => ⟨S50000x128, .f32⟩
  | 119 => ⟨S128x40, .f32⟩
  | 120 => ⟨S50000x40, .f32⟩
  | 121 => ⟨S1x40, .f32⟩
  | 122 => ⟨S50000x40, .f32⟩
  | 123 => ⟨S50000x40, .f32⟩
  | 124 => ⟨S_, .f32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000x40, .f32⟩
  | 3 => ⟨S50000x40, .f32⟩
  | 4 => ⟨S50000x40, .f32⟩
  | 5 => ⟨S_, .f32⟩
  | 6 => ⟨S50000, .f32⟩
  | 7 => ⟨S50000x1, .f32⟩
  | 8 => ⟨S50000x1, .f32⟩
  | 9 => ⟨S50000x40, .f32⟩
  | 10 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_cst : Ref sig .tc := ⟨.hbm, 63, rfl⟩
abbrev main_call0_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call2_cst : Ref sig .tc := ⟨.hbm, 124, rfl⟩
abbrev main_call2_v0 : Ref sig .tc := ⟨.hbm, 125, rfl⟩
abbrev main_call2_cst_0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_cst_1 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KerRun.lean ====
/-
  The kernel program's run with its result named.

  @main is three pipelined regions among stretches of host operations. Every weakly fair execution terminates, and
  the final memory holds, at every buffer that outlives the regions, the contents the fold through @main leaves
  there: the result buffer at the third region's output array, the arguments as launched. This is the launch of the
  same segments that gives the frame, with the result buffer read out of the last thread state beside the arguments.
-/
import proofs.«122453_j20323785244960_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments end as launched. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.RunValue

end
-- ==== Proof.Spec.lean ====
/-
  The specification both programs meet, index by index, over the extended reals.

  One GraphSAGE layer acts on each node by itself. With x the node's own feature row and a the mean
  of its neighbours' rows, at output channel c:
      pre c   = ((Σ_k x[k]·Wl[c,k] + bl[c]) + Σ_k a[k]·Wr[c,k]) + br[c]
      layer c = max (pre c / max (√(Σ_c' pre c'²)) ε) 0
  where ε and 0 are the two programs' common f32 literals (never evaluated: the same word on both sides).

  The head, again one node at a time: two affine maps and a log-softmax taken after subtracting the
  row's maximum,
      hid j   = Σ_k h[k]·W1[j,k] + b1[j]
      logit c = Σ_j hid j · W2[c,j] + b2[c]
      out c   = (logit c − M) − log Σ_c' exp (logit c' − M),   M = max_c' logit c'
  with M the fold of max from the f32 pattern of −∞.

  The weights are read as the arguments hold them (output channel first); a program that
  transposes them first reads the transpose at the swapped index.
-/
import Idealize.ShloMosaic.PureOps.Ideal
import Idealize.ShloMosaic.Lib.ValueIdx

noncomputable section

namespace Cert.Sage

open Idealize.ShloMosaic Idealize.ShloMosaic.ValueIdx

/-- Node features, neighbourhood means, a layer's result: 50000 nodes by 128 channels. -/
abbrev Nodes : Type := (⟨2, ![50000, 128]⟩ : Shape).Idx → EReal
/-- A square weight matrix, output channel first. -/
abbrev Mat : Type := (⟨2, ![128, 128]⟩ : Shape).Idx → EReal
/-- A bias over 128 channels. -/
abbrev Bias : Type := (⟨1, ![128]⟩ : Shape).Idx → EReal
/-- The head's second weight matrix, 40 classes by 128 channels. -/
abbrev Mat2 : Type := (⟨2, ![40, 128]⟩ : Shape).Idx → EReal
/-- The head's second bias. -/
abbrev Bias2 : Type := (⟨1, ![40]⟩ : Shape).Idx → EReal
/-- The result: 50000 nodes by 40 classes. -/
abbrev Scores : Type := (⟨2, ![50000, 40]⟩ : Shape).Idx → EReal

/-- The layer's normalisation floor, the f32 literal both programs print (about 1e-12). -/
def eps : EReal := Ideal.ofBits .f32 0x2B8CBCCC#32
/-- The f32 zero word both programs clamp against. -/
def zero : EReal := Ideal.ofBits .f32 0x00000000#32
/-- The f32 pattern of −∞ both programs start the row maximum from. -/
def negInf : EReal := Ideal.ofBits .f32 0xFF800000#32

/-! ## One layer, on one node's rows -/

/-- A layer before normalisation, at channel `c`, from the node's own row `xr` and its neighbourhood mean `ar`. -/
def preRow (xr ar : Fin 128 → EReal) (wl : Mat) (bl : Bias) (wr : Mat) (br : Bias) (c : Fin 128) : EReal :=
  (((∑ k : Fin 128, xr k * wl (ix2 c k)) + bl (ix1 c)) + (∑ k : Fin 128, ar k * wr (ix2 c k))) + br (ix1 c)

/-- A layer at channel `c`: the row scaled to unit length (the length floored at ε), clamped at zero. -/
def layerRow (xr ar : Fin 128 → EReal) (wl : Mat) (bl : Bias) (wr : Mat) (br : Bias) (c : Fin 128) : EReal :=
  max (Ideal.div (preRow xr ar wl bl wr br c)
        (max (Ideal.sqrt (∑ c' : Fin 128, preRow xr ar wl bl wr br c' * preRow xr ar wl bl wr br c')) eps)) zero

/-- A layer as an array: node `r`'s result row is `layerRow` of row `r` of the features and of the means. -/
def layer (X A : Nodes) (wl : Mat) (bl : Bias) (wr : Mat) (br : Bias) : Nodes :=
  fun i => layerRow (fun k => X (ix2 (i 0) k)) (fun k => A (ix2 (i 0) k)) wl bl wr br (i 1)

theorem layer_ix2 (X A : Nodes) (wl : Mat) (bl : Bias) (wr : Mat) (br : Bias) (r : Fin 50000) (c : Fin 128) :
    layer X A wl bl wr br (ix2 r c) = layerRow (fun k => X (ix2 r k)) (fun k => A (ix2 r k)) wl bl wr br c := rfl

/-! ## The head, on one node's row -/

/-- The head's hidden row. -/
def hidRow (hr : Fin 128 → EReal) (w1 : Mat) (b1 : Bias) (j : Fin 128) : EReal :=
  (∑ k : Fin 128, hr k * w1 (ix2 j k)) + b1 (ix1 j)

/-- The head's logits. -/
def logitRow (hr : Fin 128 → EReal) (w1 : Mat) (b1 : Bias) (w2 : Mat2) (b2 : Bias2) (c : Fin 40) : EReal :=
  (∑ j : Fin 128, hidRow hr w1 b1 j * w2 (ix2 c j)) + b2 (ix1 c)

/-- The row's largest logit, folded from −∞. -/
def maxRow (hr : Fin 128 → EReal) (w1 : Mat) (b1 : Bias) (w2 : Mat2) (b2 : Bias2) : EReal :=
  (Finset.univ : Finset (Fin 40)).fold max negInf (fun c => logitRow hr w1 b1 w2 b2 c)

/-- The log-softmax of the row, taken on the logits shifted by the row's maximum. -/
def headRow (hr : Fin 128 → EReal) (w1 : Mat) (b1 : Bias) (w2 : Mat2) (b2 : Bias2) (c : Fin 40) : EReal :=
  (logitRow hr w1 b1 w2 b2 c - maxRow hr w1 b1 w2 b2)
    - Ideal.log (∑ c' : Fin 40, Ideal.exp (logitRow hr w1 b1 w2 b2 c' - maxRow hr w1 b1 w2 b2))

/-- The head as an array. -/
def head (H : Nodes) (w1 : Mat) (b1 : Bias) (w2 : Mat2) (b2 : Bias2) : Scores :=
  fun i => headRow (fun k => H (ix2 (i 0) k)) w1 b1 w2 b2 (i 1)

theorem head_ix2 (H : Nodes) (w1 : Mat) (b1 : Bias) (w2 : Mat2) (b2 : Bias2) (r : Fin 50000) (c : Fin 40) :
    head H w1 b1 w2 b2 (ix2 r c) = headRow (fun k => H (ix2 r k)) w1 b1 w2 b2 c := rfl

end Cert.Sage

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.KerLayerPay.lean ====
/-
  The two layer kernels' stored value, read at an index.

  Each kernel body computes, from a block of node rows x, the block of neighbourhood means a, the two weight
  matrices held transposed (indexed (k, c)) and the two biases held as rows [1, 128]:
      pre[p, c] = ((Σ_k x[p,k]·Wlᵀ[k,c] + bl[c]) + Σ_k a[p,k]·Wrᵀ[k,c]) + br[c]
      out[p, c] = max (pre[p, c] / max (√(Σ_c' pre[p, c']²)) ε) 0
  with the row's sum of squares taken along the lanes, viewed as a column and broadcast back over the row.
  At (p, c) this is the specification's `layerRow` of row p of x and of a, at channel c.
-/
import proofs.«122453_j20323785244960_1_alg».proof.Proof.Gen.KernelIdeal.Skeleton
import proofs.«122453_j20323785244960_1_alg».proof.Proof.Spec
import proofs.«122453_j20323785244960_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerPay

open Cert.KernelIdeal Cert.KernelIdeal.Gen Idealize.ShloMosaic Idealize.ShloMosaic.ValueIdx

/-! ## The product of a block of rows by a square matrix -/

/-- The dot's dimension numbers: rows of the left operand against rows of the right one. -/
abbrev D : DotDims S5000x128 S128x128 S5000x128 := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl

theorem lhs_contr (i : S5000x128.Idx) (q : D.contr.Idx) : (D.lhsIdx i q 1).val = (q ⟨0, by decide⟩).val :=
  D.lhsIdx_val_of_single rfl i q

theorem rhs_contr (i : S5000x128.Idx) (q : D.contr.Idx) : (D.rhsIdx i q 0).val = (q ⟨0, by decide⟩).val :=
  D.rhsIdx_val_of_single rfl i q

theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A [5000,128] block times a [128,128] matrix, accumulated from zero: at (p, q) the sum over k of
    the block's (p, k) times the matrix's (k, q). -/
theorem matmul_zero_apply (a : FVec Ideal S5000x128 .f32) (w : FVec Ideal S128x128 .f32) (p : Fin 5000) (q : Fin 128) :
    matmul D none a w (constant (F := Ideal) S5000x128 .f32 0x00000000#32) (ix2 p q)
      = ∑ k : Fin 128, a (ix2 p k) * w (ix2 k q) := by
  refine (Ideal.matmul_constant_zero_apply D none a w (ix2 p q)).trans ?_
  rw [← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun b => Fin.ext (by
    match b with
    | ⟨0, _⟩ => exact lhs_row _ _
    | ⟨1, _⟩ => exact (lhs_contr _ _).trans hk)
  have er : D.rhsIdx (ix2 p q) ((ValueIdx.contrEquiv1 D 128 rfl rfl).symm k) = ix2 k q := funext fun b => Fin.ext (by
    match b with
    | ⟨0, _⟩ => exact (rhs_contr _ _).trans hk
    | ⟨1, _⟩ => exact rhs_col _ _)
  rw [el, er]

/-! ## The sum along the lanes -/

/-- The lane sum of a [5000,128] block at row p: the sum of the row's 128 entries. -/
theorem laneSum_apply (v : FVec Ideal S5000x128 .f32) (p : Fin 5000) :
    multiReduction (F := Ideal) .add [1] S5000 v 0x00000000#32 reduces_S5000x128_S5000 (.inl rfl) rfl (ix1 p)
      = ∑ c : Fin 128, v (ix2 p c) := by
  refine (Ideal.multiReduction_add_single v 0x00000000#32 reduces_S5000x128_S5000 (.inl rfl) rfl (ix1 p)).trans ?_
  refine Finset.sum_congr rfl fun c _ => congrArg v (funext fun b => Fin.ext ?_)
  match b with
  | ⟨0, _⟩ => rfl
  | ⟨1, _⟩ => rfl

/-! ## The value before normalisation -/

/-- The affine part: the rows times the transposed left weights plus the left bias row, plus the means
    times the transposed right weights, plus the right bias row. -/
def preV (x0 x1 : FVec Ideal S5000x128 .f32) (x2 : FVec Ideal S128x128 .f32) (x3 : FVec Ideal S1x128 .f32)
    (x4 : FVec Ideal S128x128 .f32) (x5 : FVec Ideal S1x128 .f32) : FVec Ideal S5000x128 .f32 :=
  addf (addf (addf (matmul D none x0 x2 (constant (F := Ideal) S5000x128 .f32 0x00000000#32))
                   (broadcastTo S5000x128 x3 broadcasts_S1x128_S5000x128))
             (matmul D none x1 x4 (constant (F := Ideal) S5000x128 .f32 0x00000000#32)))
       (broadcastTo S5000x128 x5 broadcasts_S1x128_S5000x128)

/-- At (p, c) the affine part is the specification's `preRow` of row p of the two blocks: the transposed
    weights are read at the swapped index, the bias rows at their one row. -/
theorem preV_apply (x0 x1 : FVec Ideal S5000x128 .f32) (x2 : FVec Ideal S128x128 .f32) (x3 : FVec Ideal S1x128 .f32)
    (x4 : FVec Ideal S128x128 .f32) (x5 : FVec Ideal S1x128 .f32)
    (wl : Cert.Sage.Mat) (bl : Cert.Sage.Bias) (wr : Cert.Sage.Mat) (br : Cert.Sage.Bias)
    (h2 : ∀ (k c : Fin 128), x2 (ix2 k c) = wl (ix2 c k)) (h3 : ∀ c : Fin 128, x3 (ix2 (0 : Fin 1) c) = bl (ix1 c))
    (h4 : ∀ (k c : Fin 128), x4 (ix2 k c) = wr (ix2 c k)) (h5 : ∀ c : Fin 128, x5 (ix2 (0 : Fin 1) c) = br (ix1 c))
    (p : Fin 5000) (c : Fin 128) :
    preV x0 x1 x2 x3 x4 x5 (ix2 p c)
      = Cert.Sage.preRow (fun k => x0 (ix2 p k)) (fun k => x1 (ix2 p k)) wl bl wr br c := by
  unfold preV Cert.Sage.preRow
  rw [addf_apply, addf_apply, addf_apply, matmul_zero_apply, matmul_zero_apply,
    broadcastTo_1b_ab_apply, broadcastTo_1b_ab_apply, h3, h5]
  congr 2
  · congr 1
    exact Finset.sum_congr rfl fun k _ => congrArg _ (h2 k c)
  · exact Finset.sum_congr rfl fun k _ => congrArg _ (h4 k c)

/-! ## The normalisation -/

/-- A block scaled row by row to unit length, the length floored at the f32 literal ε, then clamped at zero. -/
def normV (v : FVec Ideal S5000x128 .f32) : FVec Ideal S5000x128 .f32 :=
  maximumf
    (divf v
      (broadcastTo S5000x128
        (maximumf
          (sqrt (shapeCast S5000x1
            (multiReduction (F := Ideal) .add [1] S5000 (mulf v v) 0x00000000#32 reduces_S5000x128_S5000 (.inl rfl) rfl)
            shapeCasts_S5000_S5000x1))
          (broadcast S5000x1 (Scalar.ofBits (F := Ideal) .f32 0x2B8CBCCC#32)))
        broadcasts_S5000x1_S5000x128))
    (broadcast S5000x128 (Scalar.ofBits (F := Ideal) .f32 0x00000000#32))

/-- At (p, c): the entry over the floored root of the row's sum of squares, clamped at zero. -/
theorem normV_apply (v : FVec Ideal S5000x128 .f32) (p : Fin 5000) (c : Fin 128) :
    normV v (ix2 p c)
      = max (Ideal.div (v (ix2 p c))
          (max (Ideal.sqrt (∑ c' : Fin 128, v (ix2 p c') * v (ix2 p c'))) Cert.Sage.eps)) Cert.Sage.zero := by
  unfold normV
  rw [maximumf_apply, divf_apply, Cert.LibColumns.broadcastTo_a1_ab_apply, maximumf_apply, broadcast_apply, broadcast_apply]
  show max (Ideal.div (v (ix2 p c)) (max (Ideal.sqrt (shapeCast S5000x1 _ shapeCasts_S5000_S5000x1 (ix2 p (0 : Fin 1)))) _)) _ = _
  rw [Cert.LibColumns.shapeCast_a_a1_apply, laneSum_apply]
  rfl

/-! ## The two kernels' stored values -/

/-- The first layer's kernel body stores the normalised affine part (its casts to the same shape are the identity). -/
theorem k0_pay1_eq (x0 x1 : FVec Ideal S5000x128 .f32) (x2 : FVec Ideal S128x128 .f32) (x3 : FVec Ideal S1x128 .f32)
    (x4 : FVec Ideal S128x128 .f32) (x5 : FVec Ideal S1x128 .f32) :
    k0_pay1 (F := Ideal) x0 x1 x2 x3 x4 x5 = normV (preV x0 x1 x2 x3 x4 x5) := by
  unfold k0_pay1
  simp only [shapeCast_self]
  rfl

/-- The second layer's kernel body stores the same function of its blocks. -/
theorem k1_pay1_eq (x0 x1 : FVec Ideal S5000x128 .f32) (x2 : FVec Ideal S128x128 .f32) (x3 : FVec Ideal S1x128 .f32)
    (x4 : FVec Ideal S128x128 .f32) (x5 : FVec Ideal S1x128 .f32) :
    k1_pay1 (F := Ideal) x0 x1 x2 x3 x4 x5 = normV (preV x0 x1 x2 x3 x4 x5) := by
  unfold k1_pay1
  simp only [shapeCast_self]
  rfl

/-- The normalised affine part at (p, c) is the specification's `layerRow` of row p of the two blocks at channel c. -/
theorem normV_preV_apply (x0 x1 : FVec Ideal S5000x128 .f32) (x2 : FVec Ideal S128x128 .f32) (x3 : FVec Ideal S1x128 .f32)
    (x4 : FVec Ideal S128x128 .f32) (x5 : FVec Ideal S1x128 .f32)
    (wl : Cert.Sage.Mat) (bl : Cert.Sage.Bias) (wr : Cert.Sage.Mat) (br : Cert.Sage.Bias)
    (h2 : ∀ (k c : Fin 128), x2 (ix2 k c) = wl (ix2 c k)) (h3 : ∀ c : Fin 128, x3 (ix2 (0 : Fin 1) c) = bl (ix1 c))
    (h4 : ∀ (k c : Fin 128), x4 (ix2 k c) = wr (ix2 c k)) (h5 : ∀ c : Fin 128, x5 (ix2 (0 : Fin 1) c) = br (ix1 c))
    (p : Fin 5000) (c : Fin 128) :
    normV (preV x0 x1 x2 x3 x4 x5) (ix2 p c)
      = Cert.Sage.layerRow (fun k => x0 (ix2 p k)) (fun k => x1 (ix2 p k)) wl bl wr br c := by
  rw [normV_apply]
  simp only [preV_apply x0 x1 x2 x3 x4 x5 wl bl wr br h2 h3 h4 h5]
  rfl

theorem pay0_apply (x0 x1 : Vec Ideal S5000x128 .f32) (x2 : Vec Ideal S128x128 .f32) (x3 : Vec Ideal S1x128 .f32) (x4 : Vec Ideal S128x128 .f32) (x5 : Vec Ideal S1x128 .f32)
    (wl : Cert.Sage.Mat) (bl : Cert.Sage.Bias) (wr : Cert.Sage.Mat) (br : Cert.Sage.Bias)
    (h2 : ∀ (k c : Fin 128), x2 (ix2 k c) = wl (ix2 c k)) (h3 : ∀ c : Fin 128, x3 (ix2 (0 : Fin 1) c) = bl (ix1 c))
    (h4 : ∀ (k c : Fin 128), x4 (ix2 k c) = wr (ix2 c k)) (h5 : ∀ c : Fin 128, x5 (ix2 (0 : Fin 1) c) = br (ix1 c))
    (p : Fin 5000) (c : Fin 128) :
    k0_pay1 (F := Ideal) x0 x1 x2 x3 x4 x5 (ix2 p c)
      = Cert.Sage.layerRow (fun k => x0 (ix2 p k)) (fun k => x1 (ix2 p k)) wl bl wr br c :=
  (congrFun (k0_pay1_eq x0 x1 x2 x3 x4 x5) (ix2 p c)).trans
    (normV_preV_apply x0 x1 x2 x3 x4 x5 wl bl wr br h2 h3 h4 h5 p c)

theorem pay1_apply (x0 x1 : Vec Ideal S5000x128 .f32) (x2 : Vec Ideal S128x128 .f32) (x3 : Vec Ideal S1x128 .f32) (x4 : Vec Ideal S128x128 .f32) (x5 : Vec Ideal S1x128 .f32)
    (wl : Cert.Sage.Mat) (bl : Cert.Sage.Bias) (wr : Cert.Sage.Mat) (br : Cert.Sage.Bias)
    (h2 : ∀ (k c : Fin 128), x2 (ix2 k c) = wl (ix2 c k)) (h3 : ∀ c : Fin 128, x3 (ix2 (0 : Fin 1) c) = bl (ix1 c))
    (h4 : ∀ (k c : Fin 128), x4 (ix2 k c) = wr (ix2 c k)) (h5 : ∀ c : Fin 128, x5 (ix2 (0 : Fin 1) c) = br (ix1 c))
    (p : Fin 5000) (c : Fin 128) :
    k1_pay1 (F := Ideal) x0 x1 x2 x3 x4 x5 (ix2 p c)
      = Cert.Sage.layerRow (fun k => x0 (ix2 p k)) (fun k => x1 (ix2 p k)) wl bl wr br c :=
  (congrFun (k1_pay1_eq x0 x1 x2 x3 x4 x5) (ix2 p c)).trans
    (normV_preV_apply x0 x1 x2 x3 x4 x5 wl bl wr br h2 h3 h4 h5 p c)

end Cert.KernelIdeal.LayerPay

end
-- ==== Proof.KerRegion0.lean ====
/-
  Region 0 of the kernel program, from blocks to the array.

  The region runs its body once per block of 5000 node rows; point `t` reads rows `5000 t … 5000 t + 4999` of the
  row-blocked operands and the whole of the others, and writes back rows `5000 t …` of the result. Each written block is
  the block of ONE whole-array function of the operand arrays — the layer of the specification, node by node —,
  and the ten blocks tile the 50000 rows, so the result array ends holding that function. The operand arrays are a
  parameter `V` (the buffer contents when the region is entered).
-/
import proofs.«122453_j20323785244960_1_alg».proof.Proof.Gen.KernelIdeal.Frame
import proofs.«122453_j20323785244960_1_alg».proof.Proof.Spec
import proofs.«122453_j20323785244960_1_alg».proof.Proof.KerLayerPay
import Idealize.ShloMosaic.Lib.Pipeline.Value
import Idealize.ShloMosaic.Lib.ValueIdx

set_option maxRecDepth 16384

noncomputable section
namespace Cert.KernelIdeal.Region0
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-blocked windows sit at block `(t, 0)`, the others at `(0, 0)`. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Row `p` of block `t` is row `5000 t + p` of the array. -/
def rowOf (t : Fin cfg0.N) (p : Fin 5000) : Fin 50000 :=
  ⟨5000 * t.val + p.val, by have ht : t.val < 10 := lt_of_lt_of_eq t.isLt N_0; have := p.isLt; omega⟩

/-- Row `p` of input block 0 at point `t` is row `5000 t + p` of its array. -/
theorem blk0_0 (c : Dev nD) (t : Fin cfg0.N) (p : Fin 5000) (k : Fin 128) :
    iblk0 V c 0 t (ix2 p k) = V c main_arg0 (ix2 (rowOf t p) k) := by
  obtain ⟨e0, e1, -⟩ := idx0 t
  show V c main_arg0 (((cfg0.win 0).blk t).view.emb (ix2 p k)) = V c main_arg0 (ix2 (rowOf t p) k)
  refine congrArg (V c main_arg0) ?_
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- Row `p` of input block 1 at point `t` is row `5000 t + p` of its array. -/
theorem blk0_1 (c : Dev nD) (t : Fin cfg0.N) (p : Fin 5000) (k : Fin 128) :
    iblk0 V c 1 t (ix2 p k) = V c main_v21 (ix2 (rowOf t p) k) := by
  obtain ⟨-, -, e0, e1, -⟩ := idx0 t
  show V c main_v21 (((cfg0.win 1).blk t).view.emb (ix2 p k)) = V c main_v21 (ix2 (rowOf t p) k)
  refine congrArg (V c main_v21) ?_
  funext a; apply Fin.ext
  match a with
  | ⟨0, _⟩ => show win0_1.index t (0 : Fin 2) * 5000 + 1 * p.val = 5000 * t.val + p.val; omega
  | ⟨1, _⟩ => show win0_1.index t (1 : Fin 2) * 128 + 1 * k.val = k.val; omega

/-- Input window 2's one block is its whole array. -/
theorem blk0_2 (c : Dev nD) (t : Fin cfg0.N) (k : Fin 128) (q : Fin 128) :
    iblk0 V c 2 t (ix2 k q) = V c main_v22 (ix2 k q) := by
  obtain ⟨-, -, -, -, e0, e1, -⟩ := idx0 t
  show V c main_v22 (((cfg0.win 2).blk t).view.emb (ix2 k q)) = V c main_v22 (ix2 k q)
  refine congrArg (V c main_v22) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Input window 3's one block is its whole array. -/
theorem blk0_3 (c : Dev nD) (t : Fin cfg0.N) (k : Fin 1) (q : Fin 128) :
    iblk0 V c 3 t (ix2 k q) = V c main_v24 (ix2 k q) := by
  obtain ⟨-, -, -, -, -, -, e0, e1, -⟩ := idx0 t
  show V c main_v24 (((cfg0.win 3).blk t).view.emb (ix2 k q)) = V c main_v24 (ix2 k q)
  refine congrArg (V c main_v24) ?_
  funext a; apply Fin.ext
  match a with
  | ⟨0, _⟩ => show win0_3.index t (0 : Fin 2) * 1 + 1 * k.val = k.val; omega
  | ⟨1, _⟩ => show win0_3.index t (1 : Fin 2) * 128 + 1 * q.val = q.val; omega

/-- Input window 4's one block is its whole array. -/
theorem blk0_4 (c : Dev nD) (t : Fin cfg0.N) (k : Fin 128) (q : Fin 128) :
    iblk0 V c 4 t (ix2 k q) = V c main_v23 (ix2 k q) := by
  obtain ⟨-, -, -, -, -, -, -, -, e0, e1, -⟩ := idx0 t
  show V c main_v23 (((cfg0.win 4).blk t).view.emb (ix2 k q)) = V c main_v23 (ix2 k q)
  refine congrArg (V c main_v23) ?_
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Input window 5's one block is its whole array. -/
theorem blk0_5 (c : Dev nD) (t : Fin cfg0.N) (k : Fin 1) (q : Fin 128) :
    iblk0 V c 5 t (ix2 k q) = V c main_v25 (ix2 k q) := by
  obtain ⟨-, -, -, -, -, -, -, -, -, -, e0, e1, -⟩ := idx0 t
  show V c main_v25 (((cfg0.win 5).blk t).view.emb (ix2 k q)) = V c main_v25 (ix2 k q)
  refine congrArg (V c main_v25) ?_
  funext a; apply Fin.ext
  match a with
  | ⟨0, _⟩ => show win0_5.index t (0 : Fin 2) * 1 + 1 * k.val = k.val; omega
  | ⟨1, _⟩ => show win0_5.index t (1 : Fin 2) * 128 + 1 * q.val = q.val; omega

/-- What point `t` writes back is block `t` of the specification's array. -/
theorem flushed0 (c : Dev nD) (t : Fin cfg0.N) (wl : Cert.Sage.Mat) (bl : Cert.Sage.Bias) (wr : Cert.Sage.Mat) (br : Cert.Sage.Bias)
    (h2 : ∀ (k c' : Fin 128), V c main_v22 (ix2 k c') = wl (ix2 c' k))
    (h3 : ∀ c' : Fin 128, V c main_v24 (ix2 (0 : Fin 1) c') = bl (ix1 c'))
    (h4 : ∀ (k c' : Fin 128), V c main_v23 (ix2 k c') = wr (ix2 c' k))
    (h5 : ∀ c' : Fin 128, V c main_v25 (ix2 (0 : Fin 1) c') = br (ix1 c')) :
    (dat0 V c).flushed 6 t = ((cfg0.win 6).blk t).view.read (Elt Ideal) (Cert.Sage.layer (V c main_arg0) (V c main_v21) wl bl wr br) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  obtain ⟨-, -, -, -, -, -, -, -, -, -, -, -, e0, e1⟩ := idx0 t
  have e6 : ((cfg0.win 6).blk t).view.emb (ix2 p q) = ix2 (rowOf t p) q := by
    funext a; apply Fin.ext
    match a with
    | ⟨0, _⟩ => show win0_6.index t (0 : Fin 2) * 5000 + 1 * p.val = 5000 * t.val + p.val; omega
    | ⟨1, _⟩ => show win0_6.index t (1 : Fin 2) * 128 + 1 * q.val = q.val; omega
  show k0_pay1 (iblk0 V c 0 t) (iblk0 V c 1 t) (iblk0 V c 2 t) (iblk0 V c 3 t) (iblk0 V c 4 t) (iblk0 V c 5 t) (ix2 p q)
    = (Cert.Sage.layer (V c main_arg0) (V c main_v21) wl bl wr br) (((cfg0.win 6).blk t).view.emb (ix2 p q))
  rw [e6, Cert.Sage.layer_ix2]
  refine (Cert.KernelIdeal.LayerPay.pay0_apply (iblk0 V c 0 t) (iblk0 V c 1 t) (iblk0 V c 2 t) (iblk0 V c 3 t) (iblk0 V c 4 t) (iblk0 V c 5 t) wl bl wr br ?_ ?_ ?_ ?_ p q).trans ?_
  · intro k c'; rw [blk0_2]; exact h2 k c'
  · intro c'; rw [blk0_3]; exact h3 c'
  · intro k c'; rw [blk0_4]; exact h4 k c'
  · intro c'; rw [blk0_5]; exact h5 c'
  rw [show (fun k => iblk0 V c 0 t (ix2 p k)) = (fun k => V c main_arg0 (ix2 (rowOf t p) k)) from funext fun k => blk0_0 V c t p k,
    show (fun k => iblk0 V c 1 t (ix2 p k)) = (fun k => V c main_v21 (ix2 (rowOf t p) k)) from funext fun k => blk0_1 V c t p k]

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every index of the result array is in the block of the point its row falls in. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨-, -, -, -, -, -, -, -, -, -, -, -, e0, e1⟩ := idx0 t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The region's result array is the specification's layer of its operand arrays. -/
theorem out_eq (c : Dev nD) (wl : Cert.Sage.Mat) (bl : Cert.Sage.Bias) (wr : Cert.Sage.Mat) (br : Cert.Sage.Bias)
    (h2 : ∀ (k c' : Fin 128), V c main_v22 (ix2 k c') = wl (ix2 c' k))
    (h3 : ∀ c' : Fin 128, V c main_v24 (ix2 (0 : Fin 1) c') = bl (ix1 c'))
    (h4 : ∀ (k c' : Fin 128), V c main_v23 (ix2 k c') = wr (ix2 c' k))
    (h5 : ∀ c' : Fin 128, V c main_v25 (ix2 (0 : Fin 1) c') = br (ix1 c')) :
    (dat0 V c).arrAt 6 cfg0.N = Cert.Sage.layer (V c main_arg0) (V c main_v21) wl bl wr br :=
  (dat0 V c).arrAt_eq_of_cover 6 (Cert.Sage.layer (V c main_arg0) (V c main_v21) wl bl wr br) (fun t _ => flushed0 V c t wl bl wr br h2 h3 h4 h5) (cover)

end Cert.KernelIdeal.Region0
end
-- ==== Proof.KerRegion1.lean ====
/-
  Region 1 of the kernel program, from blocks to the array.

  The region runs its body once per block of 5000 node rows; point `t` reads rows `5000 t … 5000 t + 4999` of the
  row-blocked operands and the whole of the others, and writes back rows `5000 t …` of the result. Each written block is
  the block of ONE whole-array function of the operand arrays — the layer of the specification, node by node —,
  and the ten blocks tile the 50000 rows, so the result array ends holding that function. The operand arrays are a
  parameter `V` (the buffer contents when the region is entered).
-/
import proofs.«122453_j20323785244960_1_alg».proof.Proof.Gen.KernelIdeal.Frame
import proofs.«122453_j20323785244960_1_alg».proof.Proof.Spec
import proofs.«122453_j20323785244960_1_alg».proof.Proof.KerLayerPay
import Idealize.ShloMosaic.Lib.Pipeline.Value
import Idealize.ShloMosaic.Lib.ValueIdx

set_option maxRecDepth 16384

noncomputable section
namespace Cert.KernelIdeal.Region1
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-blocked windows sit at block `(t, 0)`, the others at `(0, 0)`. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Row `p` of block `t` is row `5000 t + p` of the array. -/
def rowOf (t : Fin cfg1.N) (p : Fin 5000) : Fin 50000 :=
  ⟨5000 * t.val + p.val, by have ht : t.val < 10 := lt_of_lt_of_eq t.isLt N_1; have := p.isLt; omega⟩

/-- Row `p` of input block 0 at point `t` is row `5000 t + p` of its array. -/
theorem blk1_0 (c : Dev nD) (t : Fin cfg1.N) (p : Fin 5000) (k : Fin 128) :
    iblk1 V c 0 t (ix2 p k) = V c main_v26 (ix2 (rowOf t p) k) := by
  obtain ⟨e0, e1, -⟩ := idx1 t
  show V c main_v26 (((cfg1.win 0).blk t).view.emb (ix2 p k)) = V c main_v26 (ix2 (rowOf t p) k)
  refine congrArg (V c main_v26) ?_
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Row `p` of input block 1 at point `t` is row `5000 t + p` of its array. -/
theorem blk1_1 (c : Dev nD) (t : Fin cfg1.N) (p : Fin 5000) (k : Fin 128) :
    iblk1 V c 1 t (ix2 p k) = V c main_v38 (ix2 (rowOf t p) k) := by
  obtain ⟨-, -, e0, e1, -⟩ := idx1 t
  show V c main_v38 (((cfg1.win 1).blk t).view.emb (ix2 p k)) = V c main_v38 (ix2 (rowOf t p) k)
  refine congrArg (V c main_v38) ?_
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- Input window 2's one block is its whole array. -/
theorem blk1_2 (c : Dev nD) (t : Fin cfg1.N) (k : Fin 128) (q : Fin 128) :
    iblk1 V c 2 t (ix2 k q) = V c main_v39 (ix2 k q) := by
  obtain ⟨-, -, -, -, e0, e1, -⟩ := idx1 t
  show V c main_v39 (((cfg1.win 2).blk t).view.emb (ix2 k q)) = V c main_v39 (ix2 k q)
  refine congrArg (V c main_v39) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Input window 3's one block is its whole array. -/
theorem blk1_3 (c : Dev nD) (t : Fin cfg1.N) (k : Fin 1) (q : Fin 128) :
    iblk1 V c 3 t (ix2 k q) = V c main_v41 (ix2 k q) := by
  obtain ⟨-, -, -, -, -, -, e0, e1, -⟩ := idx1 t
  show V c main_v41 (((cfg1.win 3).blk t).view.emb (ix2 k q)) = V c main_v41 (ix2 k q)
  refine congrArg (V c main_v41) ?_
  funext a; apply Fin.ext
  match a with
  | ⟨0, _⟩ => show win1_3.index t (0 : Fin 2) * 1 + 1 * k.val = k.val; omega
  | ⟨1, _⟩ => show win1_3.index t (1 : Fin 2) * 128 + 1 * q.val = q.val; omega

/-- Input window 4's one block is its whole array. -/
theorem blk1_4 (c : Dev nD) (t : Fin cfg1.N) (k : Fin 128) (q : Fin 128) :
    iblk1 V c 4 t (ix2 k q) = V c main_v40 (ix2 k q) := by
  obtain ⟨-, -, -, -, -, -, -, -, e0, e1, -⟩ := idx1 t
  show V c main_v40 (((cfg1.win 4).blk t).view.emb (ix2 k q)) = V c main_v40 (ix2 k q)
  refine congrArg (V c main_v40) ?_
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- Input window 5's one block is its whole array. -/
theorem blk1_5 (c : Dev nD) (t : Fin cfg1.N) (k : Fin 1) (q : Fin 128) :
    iblk1 V c 5 t (ix2 k q) = V c main_v42 (ix2 k q) := by
  obtain ⟨-, -, -, -, -, -, -, -, -, -, e0, e1, -⟩ := idx1 t
  show V c main_v42 (((cfg1.win 5).blk t).view.emb (ix2 k q)) = V c main_v42 (ix2 k q)
  refine congrArg (V c main_v42) ?_
  funext a; apply Fin.ext
  match a with
  | ⟨0, _⟩ => show win1_5.index t (0 : Fin 2) * 1 + 1 * k.val = k.val; omega
  | ⟨1, _⟩ => show win1_5.index t (1 : Fin 2) * 128 + 1 * q.val = q.val; omega

/-- What point `t` writes back is block `t` of the specification's array. -/
theorem flushed1 (c : Dev nD) (t : Fin cfg1.N) (wl : Cert.Sage.Mat) (bl : Cert.Sage.Bias) (wr : Cert.Sage.Mat) (br : Cert.Sage.Bias)
    (h2 : ∀ (k c' : Fin 128), V c main_v39 (ix2 k c') = wl (ix2 c' k))
    (h3 : ∀ c' : Fin 128, V c main_v41 (ix2 (0 : Fin 1) c') = bl (ix1 c'))
    (h4 : ∀ (k c' : Fin 128), V c main_v40 (ix2 k c') = wr (ix2 c' k))
    (h5 : ∀ c' : Fin 128, V c main_v42 (ix2 (0 : Fin 1) c') = br (ix1 c')) :
    (dat1 V c).flushed 6 t = ((cfg1.win 6).blk t).view.read (Elt Ideal) (Cert.Sage.layer (V c main_v26) (V c main_v38) wl bl wr br) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 (n0 := 5000) (n1 := 128) j⟩
  obtain ⟨-, -, -, -, -, -, -, -, -, -, -, -, e0, e1⟩ := idx1 t
  have e6 : ((cfg1.win 6).blk t).view.emb (ix2 p q) = ix2 (rowOf t p) q := by
    funext a; apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 p q)
    = (Cert.Sage.layer (V c main_v26) (V c main_v38) wl bl wr br) (((cfg1.win 6).blk t).view.emb (ix2 p q))
  rw [e6, Cert.Sage.layer_ix2]
  refine (Cert.KernelIdeal.LayerPay.pay1_apply (iblk1 V c 0 t) (iblk1 V c 1 t) (iblk1 V c 2 t) (iblk1 V c 3 t) (iblk1 V c 4 t) (iblk1 V c 5 t) wl bl wr br ?_ ?_ ?_ ?_ p q).trans ?_
  · intro k c'; rw [blk1_2]; exact h2 k c'
  · intro c'; rw [blk1_3]; exact h3 c'
  · intro k c'; rw [blk1_4]; exact h4 k c'
  · intro c'; rw [blk1_5]; exact h5 c'
  rw [show (fun k => iblk1 V c 0 t (ix2 p k)) = (fun k => V c main_v26 (ix2 (rowOf t p) k)) from funext fun k => blk1_0 V c t p k,
    show (fun k => iblk1 V c 1 t (ix2 p k)) = (fun k => V c main_v38 (ix2 (rowOf t p) k)) from funext fun k => blk1_1 V c t p k]

/-- An index of the result array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- Every index of the result array is in the block of the point its row falls in. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) N_1.symm⟩
  obtain ⟨-, -, -, -, -, -, -, -, -, -, -, -, e0, e1⟩ := idx1 t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The region's result array is the specification's layer of its operand arrays. -/
theorem out_eq (c : Dev nD) (wl : Cert.Sage.Mat) (bl : Cert.Sage.Bias) (wr : Cert.Sage.Mat) (br : Cert.Sage.Bias)
    (h2 : ∀ (k c' : Fin 128), V c main_v39 (ix2 k c') = wl (ix2 c' k))
    (h3 : ∀ c' : Fin 128, V c main_v41 (ix2 (0 : Fin 1) c') = bl (ix1 c'))
    (h4 : ∀ (k c' : Fin 128), V c main_v40 (ix2 k c') = wr (ix2 c' k))
    (h5 : ∀ c' : Fin 128, V c main_v42 (ix2 (0 : Fin 1) c') = br (ix1 c')) :
    (dat1 V c).arrAt 6 cfg1.N = Cert.Sage.layer (V c main_v26) (V c main_v38) wl bl wr br :=
  (dat1 V c).arrAt_eq_of_cover 6 (Cert.Sage.layer (V c main_v26) (V c main_v38) wl bl wr br) (fun t _ => flushed1 V c t wl bl wr br h2 h3 h4 h5) (cover)

end Cert.KernelIdeal.Region1
end
-- ==== Proof.KerHeadPay.lean ====
/-
  The head kernel's stored value, read at an index.

  The value the head kernel stores for a block of 5000 node rows is one term over the five blocks it
  loads: the rows x0, the first weights x1 held transposed (so x1 (k, j) is W1[j, k]), the first bias as a
  row x2, the second weights x3 held transposed (x3 (j, c) = W2[c, j]) and the second bias as a row x4.
  Read at (p, c) it is the specification's head row of node row p at class c:

      hid j   = Σ_k x0[p,k]·W1[j,k] + b1[j]
      logit c = Σ_j hid j · W2[c,j] + b2[c]
      out c   = (logit c − M) − log Σ_c' exp (logit c' − M),   M = max_c' logit c' folded from −∞.

  The term splits in two: the logits (two products into a zero accumulator, each followed by a bias row
  broadcast down the rows), and the log-softmax of an array of logits (a maximum along each row, viewed as
  a column and broadcast back; a sum of exponentials along each row, likewise). Each half is read at an
  index on its own, over a variable array, and the two are composed at the end. The −∞ word is never
  evaluated: it is the same constant on both sides.
-/
import proofs.«122453_j20323785244960_1_alg».proof.Proof.Gen.KernelIdeal.Skeleton
import proofs.«122453_j20323785244960_1_alg».proof.Proof.Spec
import proofs.«122453_j20323785244960_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadPay

open Cert.KernelIdeal Cert.KernelIdeal.Gen Idealize.ShloMosaic Idealize.ShloMosaic.ValueIdx

/-! ## The two products at an index

  Each contracts the left operand's second axis with the right operand's first: at output index (p, q)
  and contraction coordinate k the operands are read at (p, k) and (k, q). -/

theorem hid_lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem hid_lhs_contr (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k

theorem hid_rhs_contr (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k

theorem hid_rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into the zero accumulator, read at `(p, q)`: the row of the left operand against the column of the right one. -/
theorem hid_apply (lhs : FVec Ideal S5000x128 .f32) (rhs : FVec Ideal S128x128 .f32) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact hid_lhs_row _ _
      | ⟨1, _⟩ => exact (hid_lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (hid_rhs_contr _ _).trans hk
      | ⟨1, _⟩ => exact hid_rhs_col _ _)
  rw [el, er]

theorem logit_lhs_row (i : S5000x40.Idx) (k : dot_S5000x128_S128x40_S5000x40_1_0_0_1_n_n.contr.Idx) :
    (dot_S5000x128_S128x40_S5000x40_1_0_0_1_n_n.lhsIdx i k 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem logit_lhs_contr (i : S5000x40.Idx) (k : dot_S5000x128_S128x40_S5000x40_1_0_0_1_n_n.contr.Idx) :
    (dot_S5000x128_S128x40_S5000x40_1_0_0_1_n_n.lhsIdx i k 1).val = (k ⟨0, by decide⟩).val :=
  dot_S5000x128_S128x40_S5000x40_1_0_0_1_n_n.lhsIdx_val_of_single rfl i k

theorem logit_rhs_contr (i : S5000x40.Idx) (k : dot_S5000x128_S128x40_S5000x40_1_0_0_1_n_n.contr.Idx) :
    (dot_S5000x128_S128x40_S5000x40_1_0_0_1_n_n.rhsIdx i k 0).val = (k ⟨0, by decide⟩).val :=
  dot_S5000x128_S128x40_S5000x40_1_0_0_1_n_n.rhsIdx_val_of_single rfl i k

theorem logit_rhs_col (i : S5000x40.Idx) (k : dot_S5000x128_S128x40_S5000x40_1_0_0_1_n_n.contr.Idx) :
    (dot_S5000x128_S128x40_S5000x40_1_0_0_1_n_n.rhsIdx i k 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- The product into the zero accumulator, read at `(p, q)`: the row of the left operand against the column of the right one. -/
theorem logit_apply (lhs : FVec Ideal S5000x128 .f32) (rhs : FVec Ideal S128x40 .f32) (p : Fin 5000) (q : Fin 40) :
    matmul dot_S5000x128_S128x40_S5000x40_1_0_0_1_n_n none lhs rhs (constant (F := Ideal) S5000x40 .f32 0x00000000#32) (ix2 p q)
      = ∑ k : Fin 128, lhs (ix2 p k) * rhs (ix2 k q) := by
  refine (Ideal.matmul_constant_zero_apply dot_S5000x128_S128x40_S5000x40_1_0_0_1_n_n none lhs rhs (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun a => Fin.ext (by
      match a with
      | ⟨0, _⟩ => exact logit_lhs_row _ _
      | ⟨1, _⟩ => exact (logit_lhs_contr _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun a => Fin.ext (by
      match a with
      | ⟨0, _⟩ => exact (logit_rhs_contr _ _).trans hk
      | ⟨1, _⟩ => exact logit_rhs_col _ _)
  rw [el, er]

/-! ## The two reductions along a row -/

/-- The index over row `p` with `c'` inserted on the reduced axis is `(p, c')`. -/
theorem lift_row (p : Fin 5000) (c' : Fin 40) : reduces_S5000x40_S5000.lift (ix1 p) c' = ix2 p c' :=
  funext fun a => Fin.ext (by
    match a with
    | ⟨0, _⟩ => rfl
    | ⟨1, _⟩ => rfl)

/-- The maximum along row `p`: the fold of `max` from the −∞ word over the row's 40 entries. -/
theorem rowMax_apply (v : FVec Ideal S5000x40 .f32) (p : Fin 5000) :
    multiReduction (F := Ideal) .maximumf [1] S5000 v 0xFF800000#32 reduces_S5000x40_S5000 (.inl rfl) rfl (ix1 p)
      = (Finset.univ : Finset (Fin 40)).fold max (Ideal.ofBits .f32 0xFF800000#32) (fun c' => v (ix2 p c')) := by
  refine (Ideal.multiReduction_maximumf_single v 0xFF800000#32 reduces_S5000x40_S5000 (.inl rfl) rfl (ix1 p)).trans ?_
  show (Finset.univ : Finset (Fin 40)).fold max (Ideal.ofBits .f32 0xFF800000#32) (fun c' => v (reduces_S5000x40_S5000.lift (ix1 p) c')) = _
  exact congrArg (fun f => (Finset.univ : Finset (Fin 40)).fold max (Ideal.ofBits .f32 0xFF800000#32) f)
    (funext fun c' => congrArg v (lift_row p c'))

/-- The sum along row `p`. -/
theorem rowSum_apply (v : FVec Ideal S5000x40 .f32) (p : Fin 5000) :
    multiReduction (F := Ideal) .add [1] S5000 v 0x00000000#32 reduces_S5000x40_S5000 (.inl rfl) rfl (ix1 p)
      = ∑ c' : Fin 40, v (ix2 p c') := by
  refine (Ideal.multiReduction_add_single v 0x00000000#32 reduces_S5000x40_S5000 (.inl rfl) rfl (ix1 p)).trans ?_
  show ∑ c' : Fin 40, v (reduces_S5000x40_S5000.lift (ix1 p) c') = _
  exact Finset.sum_congr rfl fun c' _ => congrArg v (lift_row p c')

/-! ## The log-softmax of an array of logits -/

/-- The logits less their row's maximum: the maximum along each row, viewed as a column, broadcast back along the row. -/
def shifted (v : FVec Ideal S5000x40 .f32) : FVec Ideal S5000x40 .f32 :=
  subf v (broadcastTo S5000x40 (shapeCast S5000x1 (multiReduction .maximumf [1] S5000 v 0xFF800000#32 reduces_S5000x40_S5000 (.inl rfl) rfl) shapeCasts_S5000_S5000x1) broadcasts_S5000x1_S5000x40)

/-- The shifted logits less the logarithm of their row's sum of exponentials. -/
def logSoftmax (v : FVec Ideal S5000x40 .f32) : FVec Ideal S5000x40 .f32 :=
  subf (shifted v) (broadcastTo S5000x40 (log (shapeCast S5000x1 (multiReduction .add [1] S5000 (exp (shifted v)) 0x00000000#32 reduces_S5000x40_S5000 (.inl rfl) rfl) shapeCasts_S5000_S5000x1)) broadcasts_S5000x1_S5000x40)

/-- The row maximum as the specification writes it. -/
abbrev rowMax (v : FVec Ideal S5000x40 .f32) (p : Fin 5000) : EReal :=
  (Finset.univ : Finset (Fin 40)).fold max (Ideal.ofBits .f32 0xFF800000#32) (fun c' => v (ix2 p c'))

theorem shifted_apply (v : FVec Ideal S5000x40 .f32) (p : Fin 5000) (c : Fin 40) :
    shifted v (ix2 p c) = v (ix2 p c) - rowMax v p := by
  unfold shifted
  rw [subf_apply, Cert.LibColumns.broadcastTo_a1_ab_apply, Cert.LibColumns.shapeCast_a_a1_apply, rowMax_apply]

theorem logSoftmax_apply (v : FVec Ideal S5000x40 .f32) (p : Fin 5000) (c : Fin 40) :
    logSoftmax v (ix2 p c)
      = (v (ix2 p c) - rowMax v p) - Ideal.log (∑ c' : Fin 40, Ideal.exp (v (ix2 p c') - rowMax v p)) := by
  unfold logSoftmax
  rw [subf_apply, shifted_apply, Cert.LibColumns.broadcastTo_a1_ab_apply]
  show _ - Ideal.log (shapeCast S5000x1 (multiReduction (F := Ideal) .add [1] S5000 (exp (shifted v)) 0x00000000#32 reduces_S5000x40_S5000 (.inl rfl) rfl) shapeCasts_S5000_S5000x1 (ix2 p (0 : Fin 1))) = _
  rw [Cert.LibColumns.shapeCast_a_a1_apply, rowSum_apply]
  refine congrArg (fun s => (v (ix2 p c) - rowMax v p) - Ideal.log s) (Finset.sum_congr rfl fun c' _ => ?_)
  show Ideal.exp (shifted v (ix2 p c')) = _
  rw [shifted_apply]

/-! ## The logits -/

/-- The two affine maps as the kernel computes them from its loaded blocks. -/
def logits (x0 : FVec Ideal S5000x128 .f32) (x1 : FVec Ideal S128x128 .f32) (x2 : FVec Ideal S1x128 .f32)
    (x3 : FVec Ideal S128x40 .f32) (x4 : FVec Ideal S1x40 .f32) : FVec Ideal S5000x40 .f32 :=
  addf
    (matmul dot_S5000x128_S128x40_S5000x40_1_0_0_1_n_n none
      (addf
        (matmul dot_S5000x128_S128x128_S5000x128_1_0_0_1_n_n none (shapeCast S5000x128 x0 shapeCasts_S5000x128_S5000x128)
          (shapeCast S128x128 x1 shapeCasts_S128x128_S128x128) (constant S5000x128 .f32 0x00000000#32))
        (broadcastTo S5000x128 (shapeCast S1x128 x2 shapeCasts_S1x128_S1x128) broadcasts_S1x128_S5000x128))
      (shapeCast S128x40 x3 shapeCasts_S128x40_S128x40) (constant S5000x40 .f32 0x00000000#32))
    (broadcastTo S5000x40 (shapeCast S1x40 x4 shapeCasts_S1x40_S1x40) broadcasts_S1x40_S5000x40)

theorem logits_apply (x0 : FVec Ideal S5000x128 .f32) (x1 : FVec Ideal S128x128 .f32) (x2 : FVec Ideal S1x128 .f32)
    (x3 : FVec Ideal S128x40 .f32) (x4 : FVec Ideal S1x40 .f32)
    (w1 : Cert.Sage.Mat) (b1 : Cert.Sage.Bias) (w2 : Cert.Sage.Mat2) (b2 : Cert.Sage.Bias2)
    (h1 : ∀ (k j : Fin 128), x1 (ix2 k j) = w1 (ix2 j k)) (h2 : ∀ j : Fin 128, x2 (ix2 (0 : Fin 1) j) = b1 (ix1 j))
    (h3 : ∀ (j : Fin 128) (c : Fin 40), x3 (ix2 j c) = w2 (ix2 c j)) (h4 : ∀ c : Fin 40, x4 (ix2 (0 : Fin 1) c) = b2 (ix1 c))
    (p : Fin 5000) (c : Fin 40) :
    logits x0 x1 x2 x3 x4 (ix2 p c) = Cert.Sage.logitRow (fun k => x0 (ix2 p k)) w1 b1 w2 b2 c := by
  unfold logits Cert.Sage.logitRow Cert.Sage.hidRow
  simp only [shapeCast_self]
  rw [addf_apply, logit_apply, broadcastTo_1b_ab_apply, h4]
  refine congrArg (fun s => s + b2 (ix1 c)) (Finset.sum_congr rfl fun j _ => ?_)
  rw [addf_apply, hid_apply, broadcastTo_1b_ab_apply, h2, h3]
  refine congrArg (fun s => (s + b1 (ix1 j)) * w2 (ix2 c j)) (Finset.sum_congr rfl fun k _ => ?_)
  rw [h1]

/-! ## The stored value -/

/-- The kernel's stored value is the log-softmax of its logits. -/
theorem pay_eq (x0 : Vec Ideal S5000x128 .f32) (x1 : Vec Ideal S128x128 .f32) (x2 : Vec Ideal S1x128 .f32)
    (x3 : Vec Ideal S128x40 .f32) (x4 : Vec Ideal S1x40 .f32) :
    k2_pay1 (F := Ideal) x0 x1 x2 x3 x4 = logSoftmax (logits x0 x1 x2 x3 x4) := rfl

theorem pay2_apply (x0 : Vec Ideal S5000x128 .f32) (x1 : Vec Ideal S128x128 .f32) (x2 : Vec Ideal S1x128 .f32) (x3 : Vec Ideal S128x40 .f32) (x4 : Vec Ideal S1x40 .f32)
    (w1 : Cert.Sage.Mat) (b1 : Cert.Sage.Bias) (w2 : Cert.Sage.Mat2) (b2 : Cert.Sage.Bias2)
    (h1 : ∀ (k j : Fin 128), x1 (ix2 k j) = w1 (ix2 j k)) (h2 : ∀ j : Fin 128, x2 (ix2 (0 : Fin 1) j) = b1 (ix1 j))
    (h3 : ∀ (j : Fin 128) (c : Fin 40), x3 (ix2 j c) = w2 (ix2 c j)) (h4 : ∀ c : Fin 40, x4 (ix2 (0 : Fin 1) c) = b2 (ix1 c))
    (p : Fin 5000) (c : Fin 40) :
    k2_pay1 (F := Ideal) x0 x1 x2 x3 x4 (ix2 p c) = Cert.Sage.headRow (fun k => x0 (ix2 p k)) w1 b1 w2 b2 c := by
  rw [pay_eq, logSoftmax_apply]
  have hl : ∀ c' : Fin 40, logits x0 x1 x2 x3 x4 (ix2 p c') = Cert.Sage.logitRow (fun k => x0 (ix2 p k)) w1 b1 w2 b2 c' :=
    fun c' => logits_apply x0 x1 x2 x3 x4 w1 b1 w2 b2 h1 h2 h3 h4 p c'
  have hm : rowMax (logits x0 x1 x2 x3 x4) p = Cert.Sage.maxRow (fun k => x0 (ix2 p k)) w1 b1 w2 b2 :=
    congrArg (fun f => (Finset.univ : Finset (Fin 40)).fold max (Ideal.ofBits .f32 0xFF800000#32) f) (funext hl)
  unfold Cert.Sage.headRow
  rw [hm, hl]
  exact congrArg (fun s => (Cert.Sage.logitRow (fun k => x0 (ix2 p k)) w1 b1 w2 b2 c - Cert.Sage.maxRow (fun k => x0 (ix2 p k)) w1 b1 w2 b2) - Ideal.log s)
    (Finset.sum_congr rfl fun c' _ => by rw [hl])

end Cert.KernelIdeal.HeadPay

end
-- ==== Proof.KerRegion2.lean ====
/-
  Region 2 of the kernel program, from blocks to the array.

  The region runs its body once per block of 5000 node rows; point `t` reads rows `5000 t … 5000 t + 4999` of the
  row-blocked operands and the whole of the others, and writes back rows `5000 t …` of the result. Each written block is
  the block of ONE whole-array function of the operand arrays — the head of the specification, node by node —,
  and the ten blocks tile the 50000 rows, so the result array ends holding that function. The operand arrays are a
  parameter `V` (the buffer contents when the region is entered).
-/
import proofs.«122453_j20323785244960_1_alg».proof.Proof.Gen.KernelIdeal.Frame
import proofs.«122453_j20323785244960_1_alg».proof.Proof.Spec
import proofs.«122453_j20323785244960_1_alg».proof.Proof.KerHeadPay
import Idealize.ShloMosaic.Lib.Pipeline.Value
import Idealize.ShloMosaic.Lib.ValueIdx

set_option maxRecDepth 16384

noncomputable section
namespace Cert.KernelIdeal.Region2
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-blocked windows sit at block `(t, 0)`, the others at `(0, 0)`. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Row `p` of block `t` is row `5000 t + p` of the array. -/
def rowOf (t : Fin cfg2.N) (p : Fin 5000) : Fin 50000 :=
  ⟨5000 * t.val + p.val, by have ht : t.val < 10 := lt_of_lt_of_eq t.isLt N_2; have := p.isLt; omega⟩

/-- Row `p` of input block 0 at point `t` is row `5000 t + p` of its array. -/
theorem blk2_0 (c : Dev nD) (t : Fin cfg2.N) (p : Fin 5000) (k : Fin 128) :
    iblk2 V c 0 t (ix2 p k) = V c main_v43 (ix2 (rowOf t p) k) := by
  obtain ⟨e0, e1, -⟩ := idx2 t
  show V c main_v43 (((cfg2.win 0).blk t).view.emb (ix2 p k)) = V c main_v43 (ix2 (rowOf t p) k)
  refine congrArg (V c main_v43) ?_
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- Input window 1's one block is its whole array. -/
theorem blk2_1 (c : Dev nD) (t : Fin cfg2.N) (k : Fin 128) (q : Fin 128) :
    iblk2 V c 1 t (ix2 k q) = V c main_v44 (ix2 k q) := by
  obtain ⟨-, -, e0, e1, -⟩ := idx2 t
  show V c main_v44 (((cfg2.win 1).blk t).view.emb (ix2 k q)) = V c main_v44 (ix2 k q)
  refine congrArg (V c main_v44) ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Input window 2's one block is its whole array. -/
theorem blk2_2 (c : Dev nD) (t : Fin cfg2.N) (k : Fin 1) (q : Fin 128) :
    iblk2 V c 2 t (ix2 k q) = V c main_v46 (ix2 k q) := by
  obtain ⟨-, -, -, -, e0, e1, -⟩ := idx2 t
  show V c main_v46 (((cfg2.win 2).blk t).view.emb (ix2 k q)) = V c main_v46 (ix2 k q)
  refine congrArg (V c main_v46) ?_
  funext a; apply Fin.ext
  match a with
  | ⟨0, _⟩ => show win2_2.index t (0 : Fin 2) * 1 + 1 * k.val = k.val; omega
  | ⟨1, _⟩ => show win2_2.index t (1 : Fin 2) * 128 + 1 * q.val = q.val; omega

/-- Input window 3's one block is its whole array. -/
theorem blk2_3 (c : Dev nD) (t : Fin cfg2.N) (k : Fin 128) (q : Fin 40) :
    iblk2 V c 3 t (ix2 k q) = V c main_v45 (ix2 k q) := by
  obtain ⟨-, -, -, -, -, -, e0, e1, -⟩ := idx2 t
  show V c main_v45 (((cfg2.win 3).blk t).view.emb (ix2 k q)) = V c main_v45 (ix2 k q)
  refine congrArg (V c main_v45) ?_
  funext a; apply Fin.ext
  match a with
  | ⟨0, _⟩ => show win2_3.index t (0 : Fin 2) * 128 + 1 * k.val = k.val; omega
  | ⟨1, _⟩ => show win2_3.index t (1 : Fin 2) * 40 + 1 * q.val = q.val; omega

/-- Input window 4's one block is its whole array. -/
theorem blk2_4 (c : Dev nD) (t : Fin cfg2.N) (k : Fin 1) (q : Fin 40) :
    iblk2 V c 4 t (ix2 k q) = V c main_v47 (ix2 k q) := by
  obtain ⟨-, -, -, -, -, -, -, -, e0, e1, -⟩ := idx2 t
  show V c main_v47 (((cfg2.win 4).blk t).view.emb (ix2 k q)) = V c main_v47 (ix2 k q)
  refine congrArg (V c main_v47) ?_
  funext a; apply Fin.ext
  match a with
  | ⟨0, _⟩ => show win2_4.index t (0 : Fin 2) * 1 + 1 * k.val = k.val; omega
  | ⟨1, _⟩ => show win2_4.index t (1 : Fin 2) * 40 + 1 * q.val = q.val; omega

/-- What point `t` writes back is block `t` of the specification's array. -/
theorem flushed2 (c : Dev nD) (t : Fin cfg2.N) (w1 : Cert.Sage.Mat) (b1 : Cert.Sage.Bias) (w2 : Cert.Sage.Mat2) (b2 : Cert.Sage.Bias2)
    (h1 : ∀ (k j : Fin 128), V c main_v44 (ix2 k j) = w1 (ix2 j k))
    (h2 : ∀ j : Fin 128, V c main_v46 (ix2 (0 : Fin 1) j) = b1 (ix1 j))
    (h3 : ∀ (j : Fin 128) (c' : Fin 40), V c main_v45 (ix2 j c') = w2 (ix2 c' j))
    (h4 : ∀ c' : Fin 40, V c main_v47 (ix2 (0 : Fin 1) c') = b2 (ix1 c')) :
    (dat2 V c).flushed 5 t = ((cfg2.win 5).blk t).view.read (Elt Ideal) (Cert.Sage.head (V c main_v43) w1 b1 w2 b2) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz, View.ld_unit_zero (S := S128x40) hz, View.ld_unit_zero (S := S1x40) hz, View.ld_unit_zero (S := S5000x40) hz]
  funext j
  obtain ⟨p, q, rfl⟩ : ∃ (p : Fin 5000) (q : Fin 40), j = ix2 p q := ⟨j 0, j 1, eq_ix2 (n0 := 5000) (n1 := 40) j⟩
  obtain ⟨-, -, -, -, -, -, -, -, -, -, e0, e1⟩ := idx2 t
  have e6 : ((cfg2.win 5).blk t).view.emb (ix2 p q) = ix2 (rowOf t p) q := by
    funext a; apply Fin.ext
    match a with
    | ⟨0, _⟩ => show win2_5.index t (0 : Fin 2) * 5000 + 1 * p.val = 5000 * t.val + p.val; omega
    | ⟨1, _⟩ => show win2_5.index t (1 : Fin 2) * 40 + 1 * q.val = q.val; omega
  show k2_pay1 (iblk2 V c 0 t) (iblk2 V c 1 t) (iblk2 V c 2 t) (iblk2 V c 3 t) (iblk2 V c 4 t) (ix2 p q)
    = (Cert.Sage.head (V c main_v43) w1 b1 w2 b2) (((cfg2.win 5).blk t).view.emb (ix2 p q))
  rw [e6, Cert.Sage.head_ix2]
  refine (Cert.KernelIdeal.HeadPay.pay2_apply (iblk2 V c 0 t) (iblk2 V c 1 t) (iblk2 V c 2 t) (iblk2 V c 3 t) (iblk2 V c 4 t) w1 b1 w2 b2 ?_ ?_ ?_ ?_ p q).trans ?_
  · intro k j; rw [blk2_1]; exact h1 k j
  · intro j; rw [blk2_2]; exact h2 j
  · intro j c'; rw [blk2_3]; exact h3 j c'
  · intro c'; rw [blk2_4]; exact h4 c'
  exact congrArg (fun hr => Cert.Sage.headRow hr w1 b1 w2 b2 q) (funext fun k => blk2_0 V c t p k)

/-- An index of the result array is in point `t`'s block iff each coordinate is in the block's range on its axis. -/
theorem mem_blk (t : Fin cfg2.N) (i : S50000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v48).slice (win2_5.rect t)).set ↔ _
  rw [View.set_slice_whole, Rect.mem_set_unit]
  exact Iff.rfl

/-- Every index of the result array is in the block of the point its row falls in. -/
theorem cover (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  let t : Fin cfg2.N := ⟨(i 0).val / 5000, lt_of_lt_of_eq (by omega : (i 0).val / 5000 < 10) N_2.symm⟩
  obtain ⟨-, -, -, -, -, -, -, -, -, -, e0, e1⟩ := idx2 t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

/-- The region's result array is the specification's head of its operand arrays. -/
theorem out_eq (c : Dev nD) (w1 : Cert.Sage.Mat) (b1 : Cert.Sage.Bias) (w2 : Cert.Sage.Mat2) (b2 : Cert.Sage.Bias2)
    (h1 : ∀ (k j : Fin 128), V c main_v44 (ix2 k j) = w1 (ix2 j k))
    (h2 : ∀ j : Fin 128, V c main_v46 (ix2 (0 : Fin 1) j) = b1 (ix1 j))
    (h3 : ∀ (j : Fin 128) (c' : Fin 40), V c main_v45 (ix2 j c') = w2 (ix2 c' j))
    (h4 : ∀ c' : Fin 40, V c main_v47 (ix2 (0 : Fin 1) c') = b2 (ix1 c')) :
    (dat2 V c).arrAt 5 cfg2.N = Cert.Sage.head (V c main_v43) w1 b1 w2 b2 :=
  (dat2 V c).arrAt_eq_of_cover 5 (Cert.Sage.head (V c main_v43) w1 b1 w2 b2) (fun t _ => flushed2 V c t w1 b1 w2 b2 h1 h2 h3 h4) (cover)

end Cert.KernelIdeal.Region2
end
-- ==== Proof.KerHost.lean ====
/-
  The host stretches of the kernel program, read as functions of what they start from.

  @main's host operations come in three stretches: before the first region (the edge lists split out of the edge
  array, the in-degree count floored at one, the first neighbourhood mean, the first layer's weights transposed and its
  biases as rows), between the first two regions (the second mean, taken of the first region's result, and the second
  layer's weights and biases), and before the last region (the head's weights and biases). Each buffer a later step
  reads is stated here as a function of the contents `W` the stretch starts from — `W` a variable, so that nothing is
  computed — and a buffer the stretch does not write keeps its contents. The neighbourhood means are the reference
  program's own chain of operations (slice, reshape, index wrap, gather, scatter-add, divide by the floored count):
  the same operations in the same order, so the two terms are one.
-/
import proofs.«122453_j20323785244960_1_alg».proof.Proof.Gen.KernelIdeal.Launch
import proofs.«122453_j20323785244960_1_alg».proof.Proof.RefRead
import Idealize.ShloMosaic.Lib.StableHlo.Run

set_option maxRecDepth 16384

noncomputable section
namespace Cert.KernelIdeal.Host
open Cert.KernelIdeal Cert.KernelIdeal.Gen Idealize.ShloMosaic Idealize.ShloMosaic.TcCoe Idealize.SL.Sem Idealize.ShloMosaic.StableHlo

variable (W : Valuation τ sig (Elt Ideal))

/-! ## Before the first region -/

theorem h0_v1 : after (hostOps0 (F := Ideal)) W (Proc.devRef .tc main_v1) = Cert.ReferenceIdeal.Read.val_main_v1 (F := Ideal) (W (Proc.devRef .tc main_arg1)) := by
  after_results_simp <;> rfl

theorem h0_v3 : after (hostOps0 (F := Ideal)) W (Proc.devRef .tc main_v3) = Cert.ReferenceIdeal.Read.val_main_v3 (F := Ideal) (W (Proc.devRef .tc main_arg1)) := by
  after_results_simp <;> rfl

theorem h0_v9 : after (hostOps0 (F := Ideal)) W (Proc.devRef .tc main_v9) = Cert.ReferenceIdeal.Read.val_main_v19 (F := Ideal) (W (Proc.devRef .tc main_arg1)) := by
  after_results_simp <;> rfl

theorem h0_v21 : after (hostOps0 (F := Ideal)) W (Proc.devRef .tc main_v21)
    = Cert.ReferenceIdeal.Read.val_main_v21 (F := Ideal) (W (Proc.devRef .tc main_arg0)) (W (Proc.devRef .tc main_arg1)) := by
  after_results_simp <;> rfl

theorem h0_v22 : after (hostOps0 (F := Ideal)) W (Proc.devRef .tc main_v22)
    = transpose S128x128 [1, 0] (W (Proc.devRef .tc main_arg2)) transposes_S128x128_S128x128_1_0 := by
  after_results_simp <;> rfl

theorem h0_v23 : after (hostOps0 (F := Ideal)) W (Proc.devRef .tc main_v23)
    = transpose S128x128 [1, 0] (W (Proc.devRef .tc main_arg4)) transposes_S128x128_S128x128_1_0 := by
  after_results_simp <;> rfl

theorem h0_v24 : after (hostOps0 (F := Ideal)) W (Proc.devRef .tc main_v24)
    = shapeCast S1x128 (W (Proc.devRef .tc main_arg3)) shapeCasts_S128_S1x128 := by
  after_results_simp <;> rfl

theorem h0_v25 : after (hostOps0 (F := Ideal)) W (Proc.devRef .tc main_v25)
    = shapeCast S1x128 (W (Proc.devRef .tc main_arg5)) shapeCasts_S128_S1x128 := by
  after_results_simp <;> rfl

theorem h0_main_arg0 : after (hostOps0 (F := Ideal)) W (Proc.devRef .tc main_arg0) = W (Proc.devRef .tc main_arg0) := by
  after_results_simp <;> rfl

theorem h0_main_arg1 : after (hostOps0 (F := Ideal)) W (Proc.devRef .tc main_arg1) = W (Proc.devRef .tc main_arg1) := by
  after_results_simp <;> rfl

theorem h0_main_arg6 : after (hostOps0 (F := Ideal)) W (Proc.devRef .tc main_arg6) = W (Proc.devRef .tc main_arg6) := by
  after_results_simp <;> rfl

theorem h0_main_arg7 : after (hostOps0 (F := Ideal)) W (Proc.devRef .tc main_arg7) = W (Proc.devRef .tc main_arg7) := by
  after_results_simp <;> rfl

theorem h0_main_arg8 : after (hostOps0 (F := Ideal)) W (Proc.devRef .tc main_arg8) = W (Proc.devRef .tc main_arg8) := by
  after_results_simp <;> rfl

theorem h0_main_arg9 : after (hostOps0 (F := Ideal)) W (Proc.devRef .tc main_arg9) = W (Proc.devRef .tc main_arg9) := by
  after_results_simp <;> rfl

theorem h0_main_arg10 : after (hostOps0 (F := Ideal)) W (Proc.devRef .tc main_arg10) = W (Proc.devRef .tc main_arg10) := by
  after_results_simp <;> rfl

theorem h0_main_arg11 : after (hostOps0 (F := Ideal)) W (Proc.devRef .tc main_arg11) = W (Proc.devRef .tc main_arg11) := by
  after_results_simp <;> rfl

theorem h0_main_arg12 : after (hostOps0 (F := Ideal)) W (Proc.devRef .tc main_arg12) = W (Proc.devRef .tc main_arg12) := by
  after_results_simp <;> rfl

theorem h0_main_arg13 : after (hostOps0 (F := Ideal)) W (Proc.devRef .tc main_arg13) = W (Proc.devRef .tc main_arg13) := by
  after_results_simp <;> rfl

/-! ## Between the first two regions -/

theorem h1_v38 (x0 x2 x3 x4 x5 : _) (x1 : _)
    (h26 : W (Proc.devRef .tc main_v26) = Cert.ReferenceIdeal.Read.val_main_v41 (F := Ideal) x0 x1 x2 x3 x4 x5)
    (h1 : W (Proc.devRef .tc main_v1) = Cert.ReferenceIdeal.Read.val_main_v1 (F := Ideal) x1)
    (h3 : W (Proc.devRef .tc main_v3) = Cert.ReferenceIdeal.Read.val_main_v3 (F := Ideal) x1)
    (h9 : W (Proc.devRef .tc main_v9) = Cert.ReferenceIdeal.Read.val_main_v19 (F := Ideal) x1) :
    after (hostOps1 (F := Ideal)) W (Proc.devRef .tc main_v38) = Cert.ReferenceIdeal.Read.val_main_v59 (F := Ideal) x0 x1 x2 x3 x4 x5 := by
  after_results_simp
  rw [h26, h1, h3, h9]
  rfl

theorem h1_v39 : after (hostOps1 (F := Ideal)) W (Proc.devRef .tc main_v39)
    = transpose S128x128 [1, 0] (W (Proc.devRef .tc main_arg6)) transposes_S128x128_S128x128_1_0 := by
  after_results_simp <;> rfl

theorem h1_v40 : after (hostOps1 (F := Ideal)) W (Proc.devRef .tc main_v40)
    = transpose S128x128 [1, 0] (W (Proc.devRef .tc main_arg8)) transposes_S128x128_S128x128_1_0 := by
  after_results_simp <;> rfl

theorem h1_v41 : after (hostOps1 (F := Ideal)) W (Proc.devRef .tc main_v41)
    = shapeCast S1x128 (W (Proc.devRef .tc main_arg7)) shapeCasts_S128_S1x128 := by
  after_results_simp <;> rfl

theorem h1_v42 : after (hostOps1 (F := Ideal)) W (Proc.devRef .tc main_v42)
    = shapeCast S1x128 (W (Proc.devRef .tc main_arg9)) shapeCasts_S128_S1x128 := by
  after_results_simp <;> rfl

theorem h1_main_v26 : after (hostOps1 (F := Ideal)) W (Proc.devRef .tc main_v26) = W (Proc.devRef .tc main_v26) := by
  after_results_simp <;> rfl

theorem h1_main_arg10 : after (hostOps1 (F := Ideal)) W (Proc.devRef .tc main_arg10) = W (Proc.devRef .tc main_arg10) := by
  after_results_simp <;> rfl

theorem h1_main_arg11 : after (hostOps1 (F := Ideal)) W (Proc.devRef .tc main_arg11) = W (Proc.devRef .tc main_arg11) := by
  after_results_simp <;> rfl

theorem h1_main_arg12 : after (hostOps1 (F := Ideal)) W (Proc.devRef .tc main_arg12) = W (Proc.devRef .tc main_arg12) := by
  after_results_simp <;> rfl

theorem h1_main_arg13 : after (hostOps1 (F := Ideal)) W (Proc.devRef .tc main_arg13) = W (Proc.devRef .tc main_arg13) := by
  after_results_simp <;> rfl

/-! ## Before the last region -/

theorem h2_v44 : after (hostOps2 (F := Ideal)) W (Proc.devRef .tc main_v44)
    = transpose S128x128 [1, 0] (W (Proc.devRef .tc main_arg10)) transposes_S128x128_S128x128_1_0 := by
  after_results_simp <;> rfl

theorem h2_v45 : after (hostOps2 (F := Ideal)) W (Proc.devRef .tc main_v45)
    = transpose S128x40 [1, 0] (W (Proc.devRef .tc main_arg12)) transposes_S40x128_S128x40_1_0 := by
  after_results_simp <;> rfl

theorem h2_v46 : after (hostOps2 (F := Ideal)) W (Proc.devRef .tc main_v46)
    = shapeCast S1x128 (W (Proc.devRef .tc main_arg11)) shapeCasts_S128_S1x128 := by
  after_results_simp <;> rfl

theorem h2_v47 : after (hostOps2 (F := Ideal)) W (Proc.devRef .tc main_v47)
    = shapeCast S1x40 (W (Proc.devRef .tc main_arg13)) shapeCasts_S40_S1x40 := by
  after_results_simp <;> rfl

theorem h2_main_v43 : after (hostOps2 (F := Ideal)) W (Proc.devRef .tc main_v43) = W (Proc.devRef .tc main_v43) := by
  after_results_simp <;> rfl

end Cert.KernelIdeal.Host
end
-- ==== Proof.RefLayers.lean ====
/-
  The reference program's two GraphSAGE layers are the specification's `layer`.

  Each layer of the reference is a chain of whole-array operations: two matrix products against transposed
  weights, two broadcast biases, a row-wise sum of squares, its square root floored at ε, a division and a clamp
  at zero. Read at the index (r, c) every one of them touches only row r of its array operands, so the chain
  collapses to the per-row formula of the specification:
      pre c   = ((Σ_k x[r,k]·Wl[c,k] + bl[c]) + Σ_k a[r,k]·Wr[c,k]) + br[c]
      layer c = max (pre c / max (√(Σ_c' pre c'²)) ε) 0.
  The transposed weight read at (k, c) is the weight itself at (c, k); a bias broadcast to every row read at
  (r, c) is the bias at c; the row sum starts from the f32 zero word, whose value is 0, so it drops out.
  The neighbourhood means enter as an opaque array: nothing about how they are computed is used.
-/
import proofs.«122453_j20323785244960_1_alg».proof.Proof.RefRead
import proofs.«122453_j20323785244960_1_alg».proof.Proof.Spec

noncomputable section

namespace Cert.ReferenceIdeal.RefLayers

open Cert.ReferenceIdeal Cert.ReferenceIdeal.Read Idealize.ShloMosaic Idealize.ShloMosaic.ValueIdx

/-! ## The first layer -/

/-- Before normalisation, the first layer's value at (r, c) is the specification's `preRow` of row r. -/
theorem pre1_ix2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 50000) (c : Fin 128) :
    val_main_v32 (F := Ideal) x0 x1 x2 x3 x4 x5 (ix2 r c)
      = Cert.Sage.preRow (fun k => x0 (ix2 r k)) (fun k => val_main_v21 (F := Ideal) x0 x1 (ix2 r k)) x2 x3 x4 x5 c := by
  have el : ∀ k : Fin 128, lidx_main_v23 (ix2 r c) k = ix2 r k := fun k => funext fun a => Fin.ext (by match a with | ⟨0, _⟩ => rfl | ⟨1, _⟩ => rfl)
  have er : ∀ k : Fin 128, idx_main_v22 (ridx_main_v23 (ix2 r c) k) = ix2 c k := fun k => funext fun a => Fin.ext (by match a with | ⟨0, _⟩ => rfl | ⟨1, _⟩ => rfl)
  have el' : ∀ k : Fin 128, lidx_main_v28 (ix2 r c) k = ix2 r k := fun k => funext fun a => Fin.ext (by match a with | ⟨0, _⟩ => rfl | ⟨1, _⟩ => rfl)
  have er' : ∀ k : Fin 128, idx_main_v27 (ridx_main_v28 (ix2 r c) k) = ix2 c k := fun k => funext fun a => Fin.ext (by match a with | ⟨0, _⟩ => rfl | ⟨1, _⟩ => rfl)
  have eb : idx_main_v24 (idx_main_v25 (ix2 r c)) = ix1 c := funext fun a => Fin.ext (by match a with | ⟨0, _⟩ => rfl)
  have eb' : idx_main_v30 (idx_main_v31 (ix2 r c)) = ix1 c := funext fun a => Fin.ext (by match a with | ⟨0, _⟩ => rfl)
  unfold Cert.Sage.preRow
  simp only [val_main_v32_apply, val_main_v29_apply, val_main_v26_apply, val_main_v23_apply, val_main_v28_apply,
    val_main_v25_apply, val_main_v24_apply, val_main_v31_apply, val_main_v30_apply, val_main_v22_apply,
    val_main_v27_apply, el, er, el', er', eb, eb', Ideal.addf_def]

/-- The reference's first layer is the specification's layer of the features and the first neighbourhood means. -/
theorem layer1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v41 (F := Ideal) x0 x1 x2 x3 x4 x5 = Cert.Sage.layer x0 (val_main_v21 (F := Ideal) x0 x1) x2 x3 x4 x5 := by
  funext i
  obtain ⟨r, c, rfl⟩ : ∃ (r : Fin 50000) (c : Fin 128), i = ix2 r c := ⟨i 0, i 1, eq_ix2 i⟩
  rw [Cert.Sage.layer_ix2]
  have es : ∀ k : Fin 128, idx_main_v34 (idx_main_v35 (idx_main_v39 (ix2 r c))) k = ix2 r k := fun k => funext fun a => Fin.ext (by match a with | ⟨0, _⟩ => rfl | ⟨1, _⟩ => rfl)
  unfold Cert.Sage.layerRow Cert.Sage.eps Cert.Sage.zero
  simp only [val_main_v41_apply, val_main_v40_apply, val_main_v39_apply, val_main_v38_apply, val_main_v36_apply,
    val_main_v35_apply, val_main_v34_apply, val_main_v33_apply, val_main_v37_apply, val_main_cst_5_apply,
    val_main_call0_v0_apply, val_main_call0_cst_apply, val_main_cst_4_apply, es, pre1_ix2,
    Ideal.maximumf_def, Ideal.hostDivf_def, Ideal.hostUnary_sqrt_def, Ideal.mulf_def, Ideal.ofBits_def,
    Ideal.ofBits_zero_f32, zero_add]

/-! ## The second layer: the same chain on the first layer's result and the second means -/

/-- Before normalisation, the second layer's value at (r, c) is the specification's `preRow` of row r. -/
theorem pre2_ix2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (r : Fin 50000) (c : Fin 128) :
    val_main_v70 (F := Ideal) x0 x1 x2 x3 x4 x5 x6 x7 x8 x9 (ix2 r c)
      = Cert.Sage.preRow (fun k => val_main_v41 (F := Ideal) x0 x1 x2 x3 x4 x5 (ix2 r k))
          (fun k => val_main_v59 (F := Ideal) x0 x1 x2 x3 x4 x5 (ix2 r k)) x6 x7 x8 x9 c := by
  have el : ∀ k : Fin 128, lidx_main_v61 (ix2 r c) k = ix2 r k := fun k => funext fun a => Fin.ext (by match a with | ⟨0, _⟩ => rfl | ⟨1, _⟩ => rfl)
  have er : ∀ k : Fin 128, idx_main_v60 (ridx_main_v61 (ix2 r c) k) = ix2 c k := fun k => funext fun a => Fin.ext (by match a with | ⟨0, _⟩ => rfl | ⟨1, _⟩ => rfl)
  have el' : ∀ k : Fin 128, lidx_main_v66 (ix2 r c) k = ix2 r k := fun k => funext fun a => Fin.ext (by match a with | ⟨0, _⟩ => rfl | ⟨1, _⟩ => rfl)
  have er' : ∀ k : Fin 128, idx_main_v65 (ridx_main_v66 (ix2 r c) k) = ix2 c k := fun k => funext fun a => Fin.ext (by match a with | ⟨0, _⟩ => rfl | ⟨1, _⟩ => rfl)
  have eb : idx_main_v62 (idx_main_v63 (ix2 r c)) = ix1 c := funext fun a => Fin.ext (by match a with | ⟨0, _⟩ => rfl)
  have eb' : idx_main_v68 (idx_main_v69 (ix2 r c)) = ix1 c := funext fun a => Fin.ext (by match a with | ⟨0, _⟩ => rfl)
  unfold Cert.Sage.preRow
  simp only [val_main_v70_apply, val_main_v67_apply, val_main_v64_apply, val_main_v61_apply, val_main_v66_apply,
    val_main_v63_apply, val_main_v62_apply, val_main_v69_apply, val_main_v68_apply, val_main_v60_apply,
    val_main_v65_apply, el, er, el', er', eb, eb', Ideal.addf_def]

/-- The reference's second layer is the specification's layer of the first layer's result and the second
    neighbourhood means. -/
theorem layer2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v79 (F := Ideal) x0 x1 x2 x3 x4 x5 x6 x7 x8 x9
      = Cert.Sage.layer (val_main_v41 (F := Ideal) x0 x1 x2 x3 x4 x5) (val_main_v59 (F := Ideal) x0 x1 x2 x3 x4 x5) x6 x7 x8 x9 := by
  funext i
  obtain ⟨r, c, rfl⟩ : ∃ (r : Fin 50000) (c : Fin 128), i = ix2 r c := ⟨i 0, i 1, eq_ix2 i⟩
  rw [Cert.Sage.layer_ix2]
  have es : ∀ k : Fin 128, idx_main_v72 (idx_main_v73 (idx_main_v77 (ix2 r c))) k = ix2 r k := fun k => funext fun a => Fin.ext (by match a with | ⟨0, _⟩ => rfl | ⟨1, _⟩ => rfl)
  unfold Cert.Sage.layerRow Cert.Sage.eps Cert.Sage.zero
  simp only [val_main_v79_apply, val_main_v78_apply, val_main_v77_apply, val_main_v76_apply, val_main_v74_apply,
    val_main_v73_apply, val_main_v72_apply, val_main_v71_apply, val_main_v75_apply, val_main_cst_13_apply,
    val_main_call1_v0_apply, val_main_call1_cst_apply, val_main_cst_12_apply, es, pre2_ix2,
    Ideal.maximumf_def, Ideal.hostDivf_def, Ideal.hostUnary_sqrt_def, Ideal.mulf_def, Ideal.ofBits_def,
    Ideal.ofBits_zero_f32, zero_add]

end Cert.ReferenceIdeal.RefLayers

end
-- ==== Proof.RefHead.lean ====
/-
  The reference's head is the specification's head.

  From the second layer's result H (kept as one opaque array) the reference computes two affine maps with the weights
  transposed first and the biases broadcast over the rows, then a log-softmax: the row maximum (a fold of max from the
  f32 pattern of −∞, then once more the maximum with that same pattern), the shifted logits, their exponentials summed
  along the row from the zero word, the logarithm, and the difference. Read at an index (r, c), each step is the
  specification's formula on row r of H; the outer maximum with −∞ is absorbed because the fold already starts there,
  and the zero word is the extended real 0.
-/
import proofs.«122453_j20323785244960_1_alg».proof.Proof.RefRead
import proofs.«122453_j20323785244960_1_alg».proof.Proof.Spec

noncomputable section

namespace Cert.ReferenceIdeal.RefHead

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S40x128, .f32⟩ : BufTy).Contents (Elt Ideal)) (x13 : (⟨S40, .f32⟩ : BufTy).Contents (Elt Ideal))

/-! ## The logits -/

/-- The first bias, broadcast over the rows, at (r, j) is the bias at j. -/
theorem bias1_apply (r : Fin 50000) (j : Fin 128) : val_main_v83 (F := Ideal) x11 (ix2 r j) = x11 (ix1 j) := by
  rw [val_main_v83_apply, val_main_v82_apply]
  exact congrArg x11 (funext fun a => Fin.ext (by match a with | ⟨0, _⟩ => rfl))

/-- The second bias, broadcast over the rows, at (r, c) is the bias at c. -/
theorem bias2_apply (r : Fin 50000) (c : Fin 40) : val_main_v88 (F := Ideal) x13 (ix2 r c) = x13 (ix1 c) := by
  rw [val_main_v88_apply, val_main_v87_apply]
  exact congrArg x13 (funext fun a => Fin.ext (by match a with | ⟨0, _⟩ => rfl))

/-- The first weight matrix transposed, at (k, j), is the matrix at (j, k). -/
theorem w1T_apply (k j : Fin 128) : val_main_v80 (F := Ideal) x10 (ix2 k j) = x10 (ix2 j k) := by
  rw [val_main_v80_apply]
  exact congrArg x10 (funext fun a => Fin.ext (by match a with | ⟨0, _⟩ => rfl | ⟨1, _⟩ => rfl))

/-- The second weight matrix transposed, at (j, c), is the matrix at (c, j). -/
theorem w2T_apply (j : Fin 128) (c : Fin 40) : val_main_v85 (F := Ideal) x12 (ix2 j c) = x12 (ix2 c j) := by
  rw [val_main_v85_apply]
  exact congrArg x12 (funext fun a => Fin.ext (by match a with | ⟨0, _⟩ => rfl | ⟨1, _⟩ => rfl))

/-- The hidden row: the first affine map at (r, j) is the specification's hidden row of row r of H, at j. -/
theorem hid_apply (r : Fin 50000) (j : Fin 128) :
    val_main_v84 (F := Ideal) x0 x1 x2 x3 x4 x5 x6 x7 x8 x9 x10 x11 (ix2 r j) = Cert.Sage.hidRow (fun k => val_main_v79 (F := Ideal) x0 x1 x2 x3 x4 x5 x6 x7 x8 x9 (ix2 r k)) x10 x11 j := by
  rw [val_main_v84_apply, Ideal.addf_def, val_main_v81_apply, bias1_apply]
  unfold Cert.Sage.hidRow
  refine congrArg (· + x11 (ix1 j)) (Finset.sum_congr rfl fun k _ => ?_)
  have el : lidx_main_v81 (ix2 r j) k = ix2 r k :=
    funext fun a => Fin.ext (by match a with | ⟨0, _⟩ => rfl | ⟨1, _⟩ => rfl)
  have er : ridx_main_v81 (ix2 r j) k = ix2 k j :=
    funext fun a => Fin.ext (by match a with | ⟨0, _⟩ => rfl | ⟨1, _⟩ => rfl)
  rw [el, er, w1T_apply]

/-- The logits: the second affine map at (r, c) is the specification's logit of row r of H, at c. -/
theorem logit_apply (r : Fin 50000) (c : Fin 40) :
    val_main_v89 (F := Ideal) x0 x1 x2 x3 x4 x5 x6 x7 x8 x9 x10 x11 x12 x13 (ix2 r c) = Cert.Sage.logitRow (fun k => val_main_v79 (F := Ideal) x0 x1 x2 x3 x4 x5 x6 x7 x8 x9 (ix2 r k)) x10 x11 x12 x13 c := by
  rw [val_main_v89_apply, Ideal.addf_def, val_main_v86_apply, bias2_apply]
  unfold Cert.Sage.logitRow
  refine congrArg (· + x13 (ix1 c)) (Finset.sum_congr rfl fun j _ => ?_)
  have el : lidx_main_v86 (ix2 r c) j = ix2 r j :=
    funext fun a => Fin.ext (by match a with | ⟨0, _⟩ => rfl | ⟨1, _⟩ => rfl)
  have er : ridx_main_v86 (ix2 r c) j = ix2 j c :=
    funext fun a => Fin.ext (by match a with | ⟨0, _⟩ => rfl | ⟨1, _⟩ => rfl)
  rw [el, er, w2T_apply, hid_apply]

/-! ## The row maximum -/

/-- Dropping the class axis of a [50000, 40] array leaves the [50000] vector of rows. -/
theorem reduces_rows : S50000x40.Reduces [1] S50000 := by decide

/-- Row r with class k put back on the dropped axis is (r, k). -/
theorem lift_row (r : Fin 50000) (k : Fin (S50000x40.size 1)) :
    reduces_rows.lift (ix1 r) k = ix2 r (⟨k.val, k.isLt⟩ : Fin 40) := by
  funext c; apply Fin.ext
  match c with
  | ⟨0, _⟩ => rfl
  | ⟨1, _⟩ => rfl

/-- The reference's row maximum at r: the fold of max from −∞ over the row's logits; the further maximum with −∞
    changes nothing, since the fold starts from that same value. -/
theorem rowMax_apply (r : Fin 50000) :
    val_main_call2_v2 (F := Ideal) x0 x1 x2 x3 x4 x5 x6 x7 x8 x9 x10 x11 x12 x13 (ix1 r) = Cert.Sage.maxRow (fun k => val_main_v79 (F := Ideal) x0 x1 x2 x3 x4 x5 x6 x7 x8 x9 (ix2 r k)) x10 x11 x12 x13 := by
  rw [val_main_call2_v2_apply, Ideal.maximumf_def, val_main_call2_v1_apply, val_main_call2_cst_0_apply, Ideal.ofBits_def]
  unfold val_main_call2_v0
  rw [Host.reduce_eq_fold_single FloatOps.maximumf _ _ reducesTo_S50000x40_S50000_d1 reduces_rows h_S_ (ix1 r),
    val_main_call2_cst_apply, Ideal.ofBits_def]
  have hf : (val_main_v89 (F := Ideal) x0 x1 x2 x3 x4 x5 x6 x7 x8 x9 x10 x11 x12 x13 ∘ reduces_rows.lift (ix1 r))
      = fun c : Fin 40 => Cert.Sage.logitRow (fun k => val_main_v79 (F := Ideal) x0 x1 x2 x3 x4 x5 x6 x7 x8 x9 (ix2 r k)) x10 x11 x12 x13 c :=
    funext fun c => (congrArg (val_main_v89 (F := Ideal) x0 x1 x2 x3 x4 x5 x6 x7 x8 x9 x10 x11 x12 x13) (lift_row r c)).trans
      (logit_apply x0 x1 x2 x3 x4 x5 x6 x7 x8 x9 x10 x11 x12 x13 r ⟨c.val, c.isLt⟩)
  rw [hf]
  unfold Cert.Sage.maxRow Cert.Sage.negInf
  exact max_eq_right ((Finset.le_fold_max _).mpr (Or.inl le_rfl))

/-! ## The log-softmax -/

/-- The shifted logit at (r, c). -/
theorem shifted_apply (r : Fin 50000) (c : Fin 40) :
    val_main_call2_v5 (F := Ideal) x0 x1 x2 x3 x4 x5 x6 x7 x8 x9 x10 x11 x12 x13 (ix2 r c)
      = Cert.Sage.logitRow (fun k => val_main_v79 (F := Ideal) x0 x1 x2 x3 x4 x5 x6 x7 x8 x9 (ix2 r k)) x10 x11 x12 x13 c - Cert.Sage.maxRow (fun k => val_main_v79 (F := Ideal) x0 x1 x2 x3 x4 x5 x6 x7 x8 x9 (ix2 r k)) x10 x11 x12 x13 := by
  rw [val_main_call2_v5_apply, Ideal.subf_def, logit_apply, val_main_call2_v4_apply, val_main_call2_v3_apply]
  have e : idx_main_call2_v3 (idx_main_call2_v4 (ix2 r c)) = ix1 r :=
    funext fun a => Fin.ext (by match a with | ⟨0, _⟩ => rfl)
  rw [e, rowMax_apply]

/-- The logarithm of the row's sum of exponentials, broadcast back over the classes, at (r, c). -/
theorem logSum_apply (r : Fin 50000) (c : Fin 40) :
    val_main_call2_v10 (F := Ideal) x0 x1 x2 x3 x4 x5 x6 x7 x8 x9 x10 x11 x12 x13 (ix2 r c)
      = Ideal.log (∑ c' : Fin 40, Ideal.exp (Cert.Sage.logitRow (fun k => val_main_v79 (F := Ideal) x0 x1 x2 x3 x4 x5 x6 x7 x8 x9 (ix2 r k)) x10 x11 x12 x13 c' - Cert.Sage.maxRow (fun k => val_main_v79 (F := Ideal) x0 x1 x2 x3 x4 x5 x6 x7 x8 x9 (ix2 r k)) x10 x11 x12 x13)) := by
  rw [val_main_call2_v10_apply, val_main_call2_v9_apply, Ideal.hostUnary_log_def, val_main_call2_v8_apply]
  have e : idx_main_call2_v8 (idx_main_call2_v10 (ix2 r c)) = ix1 r :=
    funext fun a => Fin.ext (by match a with | ⟨0, _⟩ => rfl)
  rw [e, val_main_call2_v7_apply, val_main_call2_cst_1_apply, Ideal.ofBits_def, Ideal.ofBits_zero_f32, zero_add]
  refine congrArg Ideal.log (Finset.sum_congr rfl fun c' _ => ?_)
  have e7 : idx_main_call2_v7 (ix1 r) c' = ix2 r c' :=
    funext fun a => Fin.ext (by match a with | ⟨0, _⟩ => rfl | ⟨1, _⟩ => rfl)
  rw [e7, val_main_call2_v6_apply, Ideal.hostUnary_exp_def, shifted_apply]

/-- The reference's head is the specification's head of the second layer's result. -/
theorem head_eq :
    val_main_v90 (F := Ideal) x0 x1 x2 x3 x4 x5 x6 x7 x8 x9 x10 x11 x12 x13
      = Cert.Sage.head (val_main_v79 (F := Ideal) x0 x1 x2 x3 x4 x5 x6 x7 x8 x9) x10 x11 x12 x13 := by
  funext i
  obtain ⟨r, c, rfl⟩ : ∃ (r : Fin 50000) (c : Fin 40), i = ix2 r c := ⟨i 0, i 1, eq_ix2 i⟩
  rw [Cert.Sage.head_ix2, val_main_v90_apply, Ideal.subf_def, shifted_apply, logSum_apply]
  rfl

end Cert.ReferenceIdeal.RefHead

end
-- ==== Proof.KerValue.lean ====
/-
  The kernel program's result as the reference's function of the arguments.

  Walking @main from the launch: the first stretch of host operations leaves the first neighbourhood mean, the
  transposed weights and the biases as rows; the first region's result array is then the specification's layer of
  the features and that mean — which is what the reference's own first layer computes; the second stretch takes the
  second mean of that array; the second region gives the second layer; the last region the head. At every step the
  operand arrays are identified with the reference's terms of the launch contents, so the result buffer ends at
  the reference's result term of the arguments.

  A transposed weight read at `(k, c)` is the argument at `(c, k)`; a bias reshaped to a row read at `(0, c)` is the
  argument at `c`.
-/
import proofs.«122453_j20323785244960_1_alg».proof.Proof.Gen.KernelIdeal.Frame
import proofs.«122453_j20323785244960_1_alg».proof.Proof.KerRegion0
import proofs.«122453_j20323785244960_1_alg».proof.Proof.KerRegion1
import proofs.«122453_j20323785244960_1_alg».proof.Proof.KerRegion2
import proofs.«122453_j20323785244960_1_alg».proof.Proof.KerHost
import proofs.«122453_j20323785244960_1_alg».proof.Proof.RefLayers
import proofs.«122453_j20323785244960_1_alg».proof.Proof.RefHead
import Idealize.ShloMosaic.Lib.ValueLayout

set_option maxRecDepth 16384

noncomputable section
namespace Cert.KernelIdeal.KerValue
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The first region -/

/-- The first region's result array is the reference's first layer of the arguments. -/
theorem first : (dat0 (V1 m ρ) c).arrAt 6 cfg0.N = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e0 : V1 m ρ c main_arg0 = (m ((c : Thread nD τ).loc main_arg0)) := Host.h0_main_arg0 (W0 m ρ c)
  have e21 : V1 m ρ c main_v21 = Cert.ReferenceIdeal.Read.val_main_v21 (F := Ideal) (m ((c : Thread nD τ).loc main_arg0)) (m ((c : Thread nD τ).loc main_arg1)) := Host.h0_v21 (W0 m ρ c)
  have e22 : V1 m ρ c main_v22 = transpose S128x128 [1, 0] (m ((c : Thread nD τ).loc main_arg2)) transposes_S128x128_S128x128_1_0 := Host.h0_v22 (W0 m ρ c)
  have e23 : V1 m ρ c main_v23 = transpose S128x128 [1, 0] (m ((c : Thread nD τ).loc main_arg4)) transposes_S128x128_S128x128_1_0 := Host.h0_v23 (W0 m ρ c)
  have e24 : V1 m ρ c main_v24 = shapeCast S1x128 (m ((c : Thread nD τ).loc main_arg3)) shapeCasts_S128_S1x128 := Host.h0_v24 (W0 m ρ c)
  have e25 : V1 m ρ c main_v25 = shapeCast S1x128 (m ((c : Thread nD τ).loc main_arg5)) shapeCasts_S128_S1x128 := Host.h0_v25 (W0 m ρ c)
  rw [Region0.out_eq (V1 m ρ) c (m ((c : Thread nD τ).loc main_arg2)) (m ((c : Thread nD τ).loc main_arg3)) (m ((c : Thread nD τ).loc main_arg4)) (m ((c : Thread nD τ).loc main_arg5))
    (fun k c' => by rw [e22]; exact transpose_ix2_apply _ _ k c')
    (fun c' => by rw [e24]; exact shapeCast_a_1a_apply _ _ (0 : Fin 1) c')
    (fun k c' => by rw [e23]; exact transpose_ix2_apply _ _ k c')
    (fun c' => by rw [e25]; exact shapeCast_a_1a_apply _ _ (0 : Fin 1) c'),
    e0, e21]
  exact (Cert.ReferenceIdeal.RefLayers.layer1_eq _ _ _ _ _ _).symm

/-! ## The second region -/

/-- A buffer the first region does not write, read after it, is read before it. -/
theorem w2_of (b : Ref sig .tc) (hb : ∀ w, Pipeline.arrRef spec0 w ≠ b) :
    W2 m ρ c (Proc.devRef .tc b) = StableHlo.after (hostOps0 (F := Ideal)) (W0 m ρ c) (Proc.devRef .tc b) :=
  W2_of_ne m ρ c b hb

/-- The second region's result array is the reference's second layer of the arguments. -/
theorem second : (dat1 (V3 m ρ) c).arrAt 6 cfg1.N = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have a26 : W2 m ρ c (Proc.devRef .tc main_v26) = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (W2_arr m ρ c 6).trans (first m ρ c)
  have a1 : W2 m ρ c (Proc.devRef .tc main_v1) = Cert.ReferenceIdeal.Read.val_main_v1 (F := Ideal) (m ((c : Thread nD τ).loc main_arg1)) :=
    (w2_of m ρ c main_v1 (by decide)).trans (Host.h0_v1 (W0 m ρ c))
  have a3 : W2 m ρ c (Proc.devRef .tc main_v3) = Cert.ReferenceIdeal.Read.val_main_v3 (F := Ideal) (m ((c : Thread nD τ).loc main_arg1)) :=
    (w2_of m ρ c main_v3 (by decide)).trans (Host.h0_v3 (W0 m ρ c))
  have a9 : W2 m ρ c (Proc.devRef .tc main_v9) = Cert.ReferenceIdeal.Read.val_main_v19 (F := Ideal) (m ((c : Thread nD τ).loc main_arg1)) :=
    (w2_of m ρ c main_v9 (by decide)).trans (Host.h0_v9 (W0 m ρ c))
  have a6 : W2 m ρ c (Proc.devRef .tc main_arg6) = (m ((c : Thread nD τ).loc main_arg6)) := (w2_of m ρ c main_arg6 (by decide)).trans (Host.h0_main_arg6 (W0 m ρ c))
  have a7 : W2 m ρ c (Proc.devRef .tc main_arg7) = (m ((c : Thread nD τ).loc main_arg7)) := (w2_of m ρ c main_arg7 (by decide)).trans (Host.h0_main_arg7 (W0 m ρ c))
  have a8 : W2 m ρ c (Proc.devRef .tc main_arg8) = (m ((c : Thread nD τ).loc main_arg8)) := (w2_of m ρ c main_arg8 (by decide)).trans (Host.h0_main_arg8 (W0 m ρ c))
  have a9' : W2 m ρ c (Proc.devRef .tc main_arg9) = (m ((c : Thread nD τ).loc main_arg9)) := (w2_of m ρ c main_arg9 (by decide)).trans (Host.h0_main_arg9 (W0 m ρ c))
  have e26 : V3 m ρ c main_v26 = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (Host.h1_main_v26 (W2 m ρ c)).trans a26
  have e38 : V3 m ρ c main_v38 = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    Host.h1_v38 (W2 m ρ c) _ _ _ _ _ _ a26 a1 a3 a9
  have e39 : V3 m ρ c main_v39 = transpose S128x128 [1, 0] (m ((c : Thread nD τ).loc main_arg6)) transposes_S128x128_S128x128_1_0 := (Host.h1_v39 (W2 m ρ c)).trans (by rw [a6])
  have e40 : V3 m ρ c main_v40 = transpose S128x128 [1, 0] (m ((c : Thread nD τ).loc main_arg8)) transposes_S128x128_S128x128_1_0 := (Host.h1_v40 (W2 m ρ c)).trans (by rw [a8])
  have e41 : V3 m ρ c main_v41 = shapeCast S1x128 (m ((c : Thread nD τ).loc main_arg7)) shapeCasts_S128_S1x128 := (Host.h1_v41 (W2 m ρ c)).trans (by rw [a7])
  have e42 : V3 m ρ c main_v42 = shapeCast S1x128 (m ((c : Thread nD τ).loc main_arg9)) shapeCasts_S128_S1x128 := (Host.h1_v42 (W2 m ρ c)).trans (by rw [a9'])
  rw [Region1.out_eq (V3 m ρ) c (m ((c : Thread nD τ).loc main_arg6)) (m ((c : Thread nD τ).loc main_arg7)) (m ((c : Thread nD τ).loc main_arg8)) (m ((c : Thread nD τ).loc main_arg9))
    (fun k c' => by rw [e39]; exact transpose_ix2_apply _ _ k c')
    (fun c' => by rw [e41]; exact shapeCast_a_1a_apply _ _ (0 : Fin 1) c')
    (fun k c' => by rw [e40]; exact transpose_ix2_apply _ _ k c')
    (fun c' => by rw [e42]; exact shapeCast_a_1a_apply _ _ (0 : Fin 1) c'),
    e26, e38]
  exact (Cert.ReferenceIdeal.RefLayers.layer2_eq _ _ _ _ _ _ _ _ _ _).symm

/-! ## The last region -/

/-- A buffer neither of the first two regions nor the second stretch writes, read at the last stretch's start, is read
    after the first stretch. -/
theorem w4_of (b : Ref sig .tc) (h1 : ∀ w, Pipeline.arrRef spec1 w ≠ b) (h0 : ∀ w, Pipeline.arrRef spec0 w ≠ b)
    (hu : StableHlo.after (hostOps1 (F := Ideal)) (W2 m ρ c) (Proc.devRef .tc b) = W2 m ρ c (Proc.devRef .tc b)) :
    W4 m ρ c (Proc.devRef .tc b) = StableHlo.after (hostOps0 (F := Ideal)) (W0 m ρ c) (Proc.devRef .tc b) :=
  (W4_of_ne m ρ c b h1).trans (hu.trans (W2_of_ne m ρ c b h0))

/-- The result buffer ends at the reference's result term of the arguments. -/
theorem result : W6 m ρ c (Proc.devRef .tc main_v48) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have a43 : W4 m ρ c (Proc.devRef .tc main_v43) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    (W4_arr m ρ c 6).trans (second m ρ c)
  have a10 : W4 m ρ c (Proc.devRef .tc main_arg10) = (m ((c : Thread nD τ).loc main_arg10)) :=
    (w4_of m ρ c main_arg10 (by decide) (by decide) (Host.h1_main_arg10 (W2 m ρ c))).trans (Host.h0_main_arg10 (W0 m ρ c))
  have a11 : W4 m ρ c (Proc.devRef .tc main_arg11) = (m ((c : Thread nD τ).loc main_arg11)) :=
    (w4_of m ρ c main_arg11 (by decide) (by decide) (Host.h1_main_arg11 (W2 m ρ c))).trans (Host.h0_main_arg11 (W0 m ρ c))
  have a12 : W4 m ρ c (Proc.devRef .tc main_arg12) = (m ((c : Thread nD τ).loc main_arg12)) :=
    (w4_of m ρ c main_arg12 (by decide) (by decide) (Host.h1_main_arg12 (W2 m ρ c))).trans (Host.h0_main_arg12 (W0 m ρ c))
  have a13 : W4 m ρ c (Proc.devRef .tc main_arg13) = (m ((c : Thread nD τ).loc main_arg13)) :=
    (w4_of m ρ c main_arg13 (by decide) (by decide) (Host.h1_main_arg13 (W2 m ρ c))).trans (Host.h0_main_arg13 (W0 m ρ c))
  have e43 : V5 m ρ c main_v43 = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (Host.h2_main_v43 (W4 m ρ c)).trans a43
  have e44 : V5 m ρ c main_v44 = transpose S128x128 [1, 0] (m ((c : Thread nD τ).loc main_arg10)) transposes_S128x128_S128x128_1_0 := (Host.h2_v44 (W4 m ρ c)).trans (by rw [a10])
  have e45 : V5 m ρ c main_v45 = transpose S128x40 [1, 0] (m ((c : Thread nD τ).loc main_arg12)) transposes_S40x128_S128x40_1_0 := (Host.h2_v45 (W4 m ρ c)).trans (by rw [a12])
  have e46 : V5 m ρ c main_v46 = shapeCast S1x128 (m ((c : Thread nD τ).loc main_arg11)) shapeCasts_S128_S1x128 := (Host.h2_v46 (W4 m ρ c)).trans (by rw [a11])
  have e47 : V5 m ρ c main_v47 = shapeCast S1x40 (m ((c : Thread nD τ).loc main_arg13)) shapeCasts_S40_S1x40 := (Host.h2_v47 (W4 m ρ c)).trans (by rw [a13])
  rw [W6_arr m ρ c 5, Region2.out_eq (V5 m ρ) c (m ((c : Thread nD τ).loc main_arg10)) (m ((c : Thread nD τ).loc main_arg11)) (m ((c : Thread nD τ).loc main_arg12)) (m ((c : Thread nD τ).loc main_arg13))
    (fun k j => by rw [e44]; exact transpose_ix2_apply _ _ k j)
    (fun j => by rw [e46]; exact shapeCast_a_1a_apply _ _ (0 : Fin 1) j)
    (fun j c' => by rw [e45]; exact transpose_ix2_apply _ _ j c')
    (fun c' => by rw [e47]; exact shapeCast_a_1a_apply _ _ (0 : Fin 1) c'),
    e43]
  exact (Cert.ReferenceIdeal.RefHead.head_eq _ _ _ _ _ _ _ _ _ _ _ _ _ _).symm

end Cert.KernelIdeal.KerValue
end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefStretch.lean ====
/-
  The reference program's line of host operations, read in stretches.

  The buffers' contents after a list of operations is a fold; the fold of a concatenation is the fold of its second
  part over the fold of its first. @main's 125 operations are cut where a value the later ones read is complete: after
  the first neighbourhood mean, after the first layer, after the second mean, after the second layer, after the logits,
  after the logits shifted by their row maximum, and at the end.
  Each stretch is read from contents `W` that are a VARIABLE (inside the inlined log-softmax, after the transports between a
  buffer's declared type and its value's type have been removed, a value carried there and back being the value): the buffer it completes is the corresponding stage of the
  reference (a function of @main's arguments) once the buffers it reads hold theirs, and a buffer it does not write
  keeps its contents. Chaining them gives the result buffer as the reference's result stage of the starting contents,
  with no term ever larger than one stretch.
-/
import proofs.«122453_j20323785244960_1_alg».proof.Proof.RefOps
import proofs.«122453_j20323785244960_1_alg».proof.Proof.RefRead
import proofs.«122453_j20323785244960_1_alg».proof.Proof.LibHostFold

set_option maxRecDepth 16384

noncomputable section

namespace Cert.ReferenceIdeal.Stretch

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 0 … 27 of @main. -/
abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)) ]

/-- Operations 28 … 51 of @main. -/
abbrev s2 : List (HloOp τ sig (Elt F)) :=
  [ unary main_arg2 main_v22 ((transpose S128x128 [1, 0] · transposes_S128x128_S128x128_1_0) : (⟨S128x128, .f32⟩ : BufTy).Contents (Elt F) → (⟨S128x128, .f32⟩ : BufTy).Contents (Elt F)),
    binary main_arg0 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    unary main_arg4 main_v27 ((transpose S128x128 [1, 0] · transposes_S128x128_S128x128_1_0) : (⟨S128x128, .f32⟩ : BufTy).Contents (Elt F) → (⟨S128x128, .f32⟩ : BufTy).Contents (Elt F)),
    binary main_v21 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    binary main_v32 main_v32 main_v33 (mulf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v33 main_cst_4 main_v34 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v34 main_v35 (broadcastInDim S50000x1 ![0] bcast_S50000_S50000x1_0 : (⟨S50000, .f32⟩ : BufTy).Contents (Elt F) → (⟨S50000x1, .f32⟩ : BufTy).Contents (Elt F)),
    unary main_v35 main_v36 (Host.sqrt : (⟨S50000x1, .f32⟩ : BufTy).Contents (Elt F) → (⟨S50000x1, .f32⟩ : BufTy).Contents (Elt F)),
    nullary main_cst_5 (constant S_ .f32 0x2B8CBCCC#32),
    unary main_cst_5 main_v37 (broadcastInDim S50000x1 ![] bcast_S_S50000x1 : (⟨S_, .f32⟩ : BufTy).Contents (Elt F) → (⟨S50000x1, .f32⟩ : BufTy).Contents (Elt F)),
    binary main_v36 main_v37 main_v38 (maximumf : (⟨S50000x1, .f32⟩ : BufTy).Contents (Elt F) → (⟨S50000x1, .f32⟩ : BufTy).Contents (Elt F) → (⟨S50000x1, .f32⟩ : BufTy).Contents (Elt F)),
    unary main_v38 main_v39 (broadcastInDim S50000x128 ![0, 1] bcast_S50000x1_S50000x128_0_1 : (⟨S50000x1, .f32⟩ : BufTy).Contents (Elt F) → (⟨S50000x128, .f32⟩ : BufTy).Contents (Elt F)),
    binary main_v32 main_v39 main_v40 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v40) (TRef.of (T := ⟨S50000x128, .f32⟩) main_call0_v0) (TRef.of (T := ⟨S50000x128, .f32⟩) main_v41) maximumf ]

/-- Operations 52 … 75 of @main. -/
abbrev s3 : List (HloOp τ sig (Elt F)) :=
  [ nullary main_c_6 (constantI S_ 32 0#32),
    unary main_c_6 main_v42 (broadcastInDim S800000 ![] bcast_S_S800000 : (⟨S_, .i32⟩ : BufTy).Contents (Elt F) → (⟨S800000, .i32⟩ : BufTy).Contents (Elt F)),
    binary main_v1 main_v42 main_v43 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v44 (broadcastInDim S800000 ![] bcast_S_S800000 : (⟨S_, .i32⟩ : BufTy).Contents (Elt F) → (⟨S800000, .i32⟩ : BufTy).Contents (Elt F)),
    binary main_v1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_8 (constant S_ .f32 0x00000000#32),
    unary main_cst_8 main_v49 (broadcastInDim S50000x128 ![] bcast_S_S50000x128 : (⟨S_, .f32⟩ : BufTy).Contents (Elt F) → (⟨S50000x128, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_9 (constant S_ .f32 0x3F800000#32),
    unary main_cst_9 main_v52 (broadcastInDim S800000x1 ![] bcast_S_S800000x1 : (⟨S_, .f32⟩ : BufTy).Contents (Elt F) → (⟨S800000x1, .f32⟩ : BufTy).Contents (Elt F)),
    nullary main_cst_10 (constant S_ .f32 0x00000000#32),
    unary main_cst_10 main_v53 (broadcastInDim S50000x1 ![] bcast_S_S50000x1 : (⟨S_, .f32⟩ : BufTy).Contents (Elt F) → (⟨S50000x1, .f32⟩ : BufTy).Contents (Elt F)),
    unary main_v3 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_11 (constant S_ .f32 0x3F800000#32),
    unary main_cst_11 main_v56 (broadcastInDim S50000x1 ![] bcast_S_S50000x1 : (⟨S_, .f32⟩ : BufTy).Contents (Elt F) → (⟨S50000x1, .f32⟩ : BufTy).Contents (Elt F)),
    binary main_v55 main_v56 main_v57 (maximumf : (⟨S50000x1, .f32⟩ : BufTy).Contents (Elt F) → (⟨S50000x1, .f32⟩ : BufTy).Contents (Elt F) → (⟨S50000x1, .f32⟩ : BufTy).Contents (Elt F)),
    unary main_v57 main_v58 (broadcastInDim S50000x128 ![0, 1] bcast_S50000x1_S50000x128_0_1 : (⟨S50000x1, .f32⟩ : BufTy).Contents (Elt F) → (⟨S50000x128, .f32⟩ : BufTy).Contents (Elt F)),
    binary main_v51 main_v58 main_v59 (Host.divf : (⟨S50000x128, .f32⟩ : BufTy).Contents (Elt F) → (⟨S50000x128, .f32⟩ : BufTy).Contents (Elt F) → (⟨S50000x128, .f32⟩ : BufTy).Contents (Elt F)) ]

/-- Operations 76 … 99 of @main. -/
abbrev s4 : List (HloOp τ sig (Elt F)) :=
  [ unary main_arg6 main_v60 ((transpose S128x128 [1, 0] · transposes_S128x128_S128x128_1_0) : (⟨S128x128, .f32⟩ : BufTy).Contents (Elt F) → (⟨S128x128, .f32⟩ : BufTy).Contents (Elt F)),
    binary main_v41 main_v60 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    unary main_arg8 main_v65 ((transpose S128x128 [1, 0] · transposes_S128x128_S128x128_1_0) : (⟨S128x128, .f32⟩ : BufTy).Contents (Elt F) → (⟨S128x128, .f32⟩ : BufTy).Contents (Elt F)),
    binary main_v59 main_v65 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v64 main_v66 main_v67 (addf : (⟨S50000x128, .f32⟩ : BufTy).Contents (Elt F) → (⟨S50000x128, .f32⟩ : BufTy).Contents (Elt F) → (⟨S50000x128, .f32⟩ : BufTy).Contents (Elt F)),
    unary main_arg9 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    binary main_v70 main_v70 main_v71 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v71 main_cst_12 main_v72 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v72 main_v73 (broadcastInDim S50000x1 ![0] bcast_S50000_S50000x1_0 : (⟨S50000, .f32⟩ : BufTy).Contents (Elt F) → (⟨S50000x1, .f32⟩ : BufTy).Contents (Elt F)),
    unary main_v73 main_v74 (Host.sqrt : (⟨S50000x1, .f32⟩ : BufTy).Contents (Elt F) → (⟨S50000x1, .f32⟩ : BufTy).Contents (Elt F)),
    nullary main_cst_13 (constant S_ .f32 0x2B8CBCCC#32),
    unary main_cst_13 main_v75 (broadcastInDim S50000x1 ![] bcast_S_S50000x1 : (⟨S_, .f32⟩ : BufTy).Contents (Elt F) → (⟨S50000x1, .f32⟩ : BufTy).Contents (Elt F)),
    binary main_v74 main_v75 main_v76 (maximumf : (⟨S50000x1, .f32⟩ : BufTy).Contents (Elt F) → (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v70 main_v77 main_v78 (Host.divf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf ]

/-- Operations 100 … 109 of @main. -/
abbrev s5 : List (HloOp τ sig (Elt F)) :=
  [ unary main_arg10 main_v80 ((transpose S128x128 [1, 0] · transposes_S128x128_S128x128_1_0) : (⟨S128x128, .f32⟩ : BufTy).Contents (Elt F) → (⟨S128x128, .f32⟩ : BufTy).Contents (Elt F)),
    binary main_v79 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    unary main_arg12 main_v85 ((transpose S128x40 [1, 0] · transposes_S40x128_S128x40_1_0) : (⟨S40x128, .f32⟩ : BufTy).Contents (Elt F) → (⟨S128x40, .f32⟩ : BufTy).Contents (Elt F)),
    binary main_v84 main_v85 main_v86 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg13 main_v87 (broadcastInDim S1x40 ![1] bcast_S40_S1x40_1 : (⟨S40, .f32⟩ : BufTy).Contents (Elt F) → (⟨S1x40, .f32⟩ : BufTy).Contents (Elt F)),
    unary main_v87 main_v88 (broadcastInDim S50000x40 ![0, 1] bcast_S1x40_S50000x40_0_1 : (⟨S1x40, .f32⟩ : BufTy).Contents (Elt F) → (⟨S50000x40, .f32⟩ : BufTy).Contents (Elt F)),
    binary main_v86 main_v88 main_v89 (addf : (⟨S50000x40, .f32⟩ : BufTy).Contents (Elt F) → (⟨S50000x40, .f32⟩ : BufTy).Contents (Elt F) → (⟨S50000x40, .f32⟩ : BufTy).Contents (Elt F)) ]

/-- Operations 110 … 117 of @main. -/
abbrev s6 : List (HloOp τ sig (Elt F)) :=
  [ TRef.nullary (TRef.of (T := ⟨S_, .f32⟩) main_call2_cst) (constant S_ .f32 0xFF800000#32),
    TRef.binary (TRef.of (T := ⟨S50000x40, .f32⟩) main_v89) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v89) (TRef.of (T := ⟨S50000x40, .f32⟩) main_call2_v4) (TRef.of (T := ⟨S50000x40, .f32⟩) main_call2_v5) subf ]

/-- Operations 118 … 124 of @main. -/
abbrev s7 : List (HloOp τ sig (Elt F)) :=
  [ TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v90) subf ]

section
variable (W : Valuation τ sig (Elt Ideal))

/-! ## The first stretch: the edge lists and the first neighbourhood mean -/

theorem s1_v21 : after (s1 (F := Ideal)) W (Proc.devRef .tc main_v21) = val_main_v21 (F := Ideal) (W (Proc.devRef .tc main_arg0)) (W (Proc.devRef .tc main_arg1)) := by
  after_results_simp <;> rfl

theorem s1_v1 : after (s1 (F := Ideal)) W (Proc.devRef .tc main_v1) = val_main_v1 (F := Ideal) (W (Proc.devRef .tc main_arg1)) := by
  after_results_simp <;> rfl

theorem s1_v3 : after (s1 (F := Ideal)) W (Proc.devRef .tc main_v3) = val_main_v3 (F := Ideal) (W (Proc.devRef .tc main_arg1)) := by
  after_results_simp <;> rfl

theorem s1_main_arg0 : after (s1 (F := Ideal)) W (Proc.devRef .tc main_arg0) = W (Proc.devRef .tc main_arg0) := by
  after_results_simp <;> rfl

theorem s1_main_arg2 : after (s1 (F := Ideal)) W (Proc.devRef .tc main_arg2) = W (Proc.devRef .tc main_arg2) := by
  after_results_simp <;> rfl

theorem s1_main_arg3 : after (s1 (F := Ideal)) W (Proc.devRef .tc main_arg3) = W (Proc.devRef .tc main_arg3) := by
  after_results_simp <;> rfl

theorem s1_main_arg4 : after (s1 (F := Ideal)) W (Proc.devRef .tc main_arg4) = W (Proc.devRef .tc main_arg4) := by
  after_results_simp <;> rfl

theorem s1_main_arg5 : after (s1 (F := Ideal)) W (Proc.devRef .tc main_arg5) = W (Proc.devRef .tc main_arg5) := by
  after_results_simp <;> rfl

theorem s1_main_arg6 : after (s1 (F := Ideal)) W (Proc.devRef .tc main_arg6) = W (Proc.devRef .tc main_arg6) := by
  after_results_simp <;> rfl

theorem s1_main_arg7 : after (s1 (F := Ideal)) W (Proc.devRef .tc main_arg7) = W (Proc.devRef .tc main_arg7) := by
  after_results_simp <;> rfl

theorem s1_main_arg8 : after (s1 (F := Ideal)) W (Proc.devRef .tc main_arg8) = W (Proc.devRef .tc main_arg8) := by
  after_results_simp <;> rfl

theorem s1_main_arg9 : after (s1 (F := Ideal)) W (Proc.devRef .tc main_arg9) = W (Proc.devRef .tc main_arg9) := by
  after_results_simp <;> rfl

theorem s1_main_arg10 : after (s1 (F := Ideal)) W (Proc.devRef .tc main_arg10) = W (Proc.devRef .tc main_arg10) := by
  after_results_simp <;> rfl

theorem s1_main_arg11 : after (s1 (F := Ideal)) W (Proc.devRef .tc main_arg11) = W (Proc.devRef .tc main_arg11) := by
  after_results_simp <;> rfl

theorem s1_main_arg12 : after (s1 (F := Ideal)) W (Proc.devRef .tc main_arg12) = W (Proc.devRef .tc main_arg12) := by
  after_results_simp <;> rfl

theorem s1_main_arg13 : after (s1 (F := Ideal)) W (Proc.devRef .tc main_arg13) = W (Proc.devRef .tc main_arg13) := by
  after_results_simp <;> rfl

/-! ## The second stretch: the first layer -/

theorem s2_v41 (x0 x1 x2 x3 x4 x5 : _)
    (h21 : W (Proc.devRef .tc main_v21) = val_main_v21 (F := Ideal) x0 x1) (h0 : W (Proc.devRef .tc main_arg0) = x0) (h2 : W (Proc.devRef .tc main_arg2) = x2)
    (h3 : W (Proc.devRef .tc main_arg3) = x3) (h4 : W (Proc.devRef .tc main_arg4) = x4) (h5 : W (Proc.devRef .tc main_arg5) = x5) :
    after (s2 (F := Ideal)) W (Proc.devRef .tc main_v41) = val_main_v41 (F := Ideal) x0 x1 x2 x3 x4 x5 := by
  after_results_simp
  rw [h21, h0, h2, h3, h4, h5]
  rfl

theorem s2_main_v1 : after (s2 (F := Ideal)) W (Proc.devRef .tc main_v1) = W (Proc.devRef .tc main_v1) := by
  after_results_simp <;> rfl

theorem s2_main_v3 : after (s2 (F := Ideal)) W (Proc.devRef .tc main_v3) = W (Proc.devRef .tc main_v3) := by
  after_results_simp <;> rfl

theorem s2_main_arg6 : after (s2 (F := Ideal)) W (Proc.devRef .tc main_arg6) = W (Proc.devRef .tc main_arg6) := by
  after_results_simp <;> rfl

theorem s2_main_arg7 : after (s2 (F := Ideal)) W (Proc.devRef .tc main_arg7) = W (Proc.devRef .tc main_arg7) := by
  after_results_simp <;> rfl

theorem s2_main_arg8 : after (s2 (F := Ideal)) W (Proc.devRef .tc main_arg8) = W (Proc.devRef .tc main_arg8) := by
  after_results_simp <;> rfl

theorem s2_main_arg9 : after (s2 (F := Ideal)) W (Proc.devRef .tc main_arg9) = W (Proc.devRef .tc main_arg9) := by
  after_results_simp <;> rfl

theorem s2_main_arg10 : after (s2 (F := Ideal)) W (Proc.devRef .tc main_arg10) = W (Proc.devRef .tc main_arg10) := by
  after_results_simp <;> rfl

theorem s2_main_arg11 : after (s2 (F := Ideal)) W (Proc.devRef .tc main_arg11) = W (Proc.devRef .tc main_arg11) := by
  after_results_simp <;> rfl

theorem s2_main_arg12 : after (s2 (F := Ideal)) W (Proc.devRef .tc main_arg12) = W (Proc.devRef .tc main_arg12) := by
  after_results_simp <;> rfl

theorem s2_main_arg13 : after (s2 (F := Ideal)) W (Proc.devRef .tc main_arg13) = W (Proc.devRef .tc main_arg13) := by
  after_results_simp <;> rfl

/-! ## The third stretch: the second neighbourhood mean -/

theorem s3_v59 (x0 x1 x2 x3 x4 x5 : _)
    (h41 : W (Proc.devRef .tc main_v41) = val_main_v41 (F := Ideal) x0 x1 x2 x3 x4 x5)
    (h1 : W (Proc.devRef .tc main_v1) = val_main_v1 (F := Ideal) x1) (h3 : W (Proc.devRef .tc main_v3) = val_main_v3 (F := Ideal) x1) :
    after (s3 (F := Ideal)) W (Proc.devRef .tc main_v59) = val_main_v59 (F := Ideal) x0 x1 x2 x3 x4 x5 := by
  after_results_simp
  rw [h41, h1, h3]
  rfl

theorem s3_main_v41 : after (s3 (F := Ideal)) W (Proc.devRef .tc main_v41) = W (Proc.devRef .tc main_v41) := by
  after_results_simp <;> rfl

theorem s3_main_arg6 : after (s3 (F := Ideal)) W (Proc.devRef .tc main_arg6) = W (Proc.devRef .tc main_arg6) := by
  after_results_simp <;> rfl

theorem s3_main_arg7 : after (s3 (F := Ideal)) W (Proc.devRef .tc main_arg7) = W (Proc.devRef .tc main_arg7) := by
  after_results_simp <;> rfl

theorem s3_main_arg8 : after (s3 (F := Ideal)) W (Proc.devRef .tc main_arg8) = W (Proc.devRef .tc main_arg8) := by
  after_results_simp <;> rfl

theorem s3_main_arg9 : after (s3 (F := Ideal)) W (Proc.devRef .tc main_arg9) = W (Proc.devRef .tc main_arg9) := by
  after_results_simp <;> rfl

theorem s3_main_arg10 : after (s3 (F := Ideal)) W (Proc.devRef .tc main_arg10) = W (Proc.devRef .tc main_arg10) := by
  after_results_simp <;> rfl

theorem s3_main_arg11 : after (s3 (F := Ideal)) W (Proc.devRef .tc main_arg11) = W (Proc.devRef .tc main_arg11) := by
  after_results_simp <;> rfl

theorem s3_main_arg12 : after (s3 (F := Ideal)) W (Proc.devRef .tc main_arg12) = W (Proc.devRef .tc main_arg12) := by
  after_results_simp <;> rfl

theorem s3_main_arg13 : after (s3 (F := Ideal)) W (Proc.devRef .tc main_arg13) = W (Proc.devRef .tc main_arg13) := by
  after_results_simp <;> rfl

/-! ## The fourth stretch: the second layer -/

theorem s4_v79 (x0 x1 x2 x3 x4 x5 x6 x7 x8 x9 : _)
    (h41 : W (Proc.devRef .tc main_v41) = val_main_v41 (F := Ideal) x0 x1 x2 x3 x4 x5)
    (h59 : W (Proc.devRef .tc main_v59) = val_main_v59 (F := Ideal) x0 x1 x2 x3 x4 x5)
    (h6 : W (Proc.devRef .tc main_arg6) = x6) (h7 : W (Proc.devRef .tc main_arg7) = x7) (h8 : W (Proc.devRef .tc main_arg8) = x8) (h9 : W (Proc.devRef .tc main_arg9) = x9) :
    after (s4 (F := Ideal)) W (Proc.devRef .tc main_v79) = val_main_v79 (F := Ideal) x0 x1 x2 x3 x4 x5 x6 x7 x8 x9 := by
  after_results_simp
  rw [h41, h59, h6, h7, h8, h9]
  rfl

theorem s4_main_arg10 : after (s4 (F := Ideal)) W (Proc.devRef .tc main_arg10) = W (Proc.devRef .tc main_arg10) := by
  after_results_simp <;> rfl

theorem s4_main_arg11 : after (s4 (F := Ideal)) W (Proc.devRef .tc main_arg11) = W (Proc.devRef .tc main_arg11) := by
  after_results_simp <;> rfl

theorem s4_main_arg12 : after (s4 (F := Ideal)) W (Proc.devRef .tc main_arg12) = W (Proc.devRef .tc main_arg12) := by
  after_results_simp <;> rfl

theorem s4_main_arg13 : after (s4 (F := Ideal)) W (Proc.devRef .tc main_arg13) = W (Proc.devRef .tc main_arg13) := by
  after_results_simp <;> rfl

/-! ## The last stretch: the head -/

theorem s5_v89 (x0 x1 x2 x3 x4 x5 x6 x7 x8 x9 x10 x11 x12 x13 : _)
    (h79 : W (Proc.devRef .tc main_v79) = val_main_v79 (F := Ideal) x0 x1 x2 x3 x4 x5 x6 x7 x8 x9)
    (h10 : W (Proc.devRef .tc main_arg10) = x10) (h11 : W (Proc.devRef .tc main_arg11) = x11) (h12 : W (Proc.devRef .tc main_arg12) = x12) (h13 : W (Proc.devRef .tc main_arg13) = x13) :
    after (s5 (F := Ideal)) W (Proc.devRef .tc main_v89) = val_main_v89 (F := Ideal) x0 x1 x2 x3 x4 x5 x6 x7 x8 x9 x10 x11 x12 x13 := by
  after_results_simp
  rw [h79, h10, h11, h12, h13]
  rfl

/-! ## The log-softmax: the logits shifted by their row maximum, then the rest -/

theorem s6_shift (x0 x1 x2 x3 x4 x5 x6 x7 x8 x9 x10 x11 x12 x13 : _)
    (h89 : W (Proc.devRef .tc main_v89) = val_main_v89 (F := Ideal) x0 x1 x2 x3 x4 x5 x6 x7 x8 x9 x10 x11 x12 x13) :
    after (s6 (F := Ideal)) W (Proc.devRef .tc main_call2_v5) = val_main_call2_v5 (F := Ideal) x0 x1 x2 x3 x4 x5 x6 x7 x8 x9 x10 x11 x12 x13 := by
  after_results_simp
  rw [h89]
  simp only [Cert.HostFold.ofBuf_toBuf]
  refine (Cert.HostFold.toBuf_eq _ _ _ HEq.rfl).trans ?_
  rw [Cert.HostFold.ofBuf_eq (TRef.of (T := ⟨S50000x40, .f32⟩) main_v89) (val_main_v89 (F := Ideal) x0 x1 x2 x3 x4 x5 x6 x7 x8 x9 x10 x11 x12 x13)
    (val_main_v89 (F := Ideal) x0 x1 x2 x3 x4 x5 x6 x7 x8 x9 x10 x11 x12 x13) HEq.rfl]
  rfl

theorem s7_v90 (x0 x1 x2 x3 x4 x5 x6 x7 x8 x9 x10 x11 x12 x13 : _)
    (h5 : W (Proc.devRef .tc main_call2_v5) = val_main_call2_v5 (F := Ideal) x0 x1 x2 x3 x4 x5 x6 x7 x8 x9 x10 x11 x12 x13) :
    after (s7 (F := Ideal)) W (Proc.devRef .tc main_v90) = val_main_v90 (F := Ideal) x0 x1 x2 x3 x4 x5 x6 x7 x8 x9 x10 x11 x12 x13 := by
  after_results_simp
  rw [h5]
  simp only [Cert.HostFold.ofBuf_toBuf]
  refine (Cert.HostFold.toBuf_eq _ _ _ HEq.rfl).trans ?_
  rw [Cert.HostFold.ofBuf_eq (TRef.of (T := ⟨S50000x40, .f32⟩) main_call2_v5) (val_main_call2_v5 (F := Ideal) x0 x1 x2 x3 x4 x5 x6 x7 x8 x9 x10 x11 x12 x13)
    (val_main_call2_v5 (F := Ideal) x0 x1 x2 x3 x4 x5 x6 x7 x8 x9 x10 x11 x12 x13) HEq.rfl]
  rfl

end

/-! ## The whole line -/

/-- @main's operations are the five stretches in order. -/
theorem ops_split : Cert.ReferenceIdeal.Value.ops (F := Ideal) = s1 (F := Ideal) ++ (s2 (F := Ideal) ++ (s3 (F := Ideal) ++ (s4 (F := Ideal) ++ (s5 (F := Ideal) ++ (s6 (F := Ideal) ++ s7 (F := Ideal)))))) := rfl

/-- After all of @main's operations the result buffer holds the reference's result term of the starting contents. -/
theorem result (V : Valuation τ sig (Elt Ideal)) :
    after (Cert.ReferenceIdeal.Value.ops (F := Ideal)) V (Proc.devRef .tc main_v90) = val_main_v90 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_split, Cert.HostFold.after_append, Cert.HostFold.after_append, Cert.HostFold.after_append, Cert.HostFold.after_append,
    Cert.HostFold.after_append, Cert.HostFold.after_append]
  have a21 := s1_v21 V
  have a1 := s1_v1 V
  have a3 := s1_v3 V
  have b41 := s2_v41 (after (s1 (F := Ideal)) V) _ _ _ _ _ _ a21 (s1_main_arg0 V) (s1_main_arg2 V) (s1_main_arg3 V) (s1_main_arg4 V) (s1_main_arg5 V)
  have b1 := (s2_main_v1 (after (s1 (F := Ideal)) V)).trans a1
  have b3 := (s2_main_v3 (after (s1 (F := Ideal)) V)).trans a3
  have c59 := s3_v59 (after (s2 (F := Ideal)) (after (s1 (F := Ideal)) V)) _ _ _ _ _ _ b41 b1 b3
  have c41 := (s3_main_v41 (after (s2 (F := Ideal)) (after (s1 (F := Ideal)) V))).trans b41
  have d79 := s4_v79 (after (s3 (F := Ideal)) (after (s2 (F := Ideal)) (after (s1 (F := Ideal)) V))) _ _ _ _ _ _ _ _ _ _ c41 c59
    (((s3_main_arg6 (after (s2 (F := Ideal)) (after (s1 (F := Ideal)) V))).trans (s2_main_arg6 (after (s1 (F := Ideal)) V))).trans (s1_main_arg6 V))
    (((s3_main_arg7 (after (s2 (F := Ideal)) (after (s1 (F := Ideal)) V))).trans (s2_main_arg7 (after (s1 (F := Ideal)) V))).trans (s1_main_arg7 V))
    (((s3_main_arg8 (after (s2 (F := Ideal)) (after (s1 (F := Ideal)) V))).trans (s2_main_arg8 (after (s1 (F := Ideal)) V))).trans (s1_main_arg8 V))
    (((s3_main_arg9 (after (s2 (F := Ideal)) (after (s1 (F := Ideal)) V))).trans (s2_main_arg9 (after (s1 (F := Ideal)) V))).trans (s1_main_arg9 V))
  have e89 := s5_v89 (after (s4 (F := Ideal)) (after (s3 (F := Ideal)) (after (s2 (F := Ideal)) (after (s1 (F := Ideal)) V)))) _ _ _ _ _ _ _ _ _ _ _ _ _ _ d79
    ((((s4_main_arg10 (after (s3 (F := Ideal)) (after (s2 (F := Ideal)) (after (s1 (F := Ideal)) V)))).trans (s3_main_arg10 (after (s2 (F := Ideal)) (after (s1 (F := Ideal)) V)))).trans (s2_main_arg10 (after (s1 (F := Ideal)) V))).trans (s1_main_arg10 V))
    ((((s4_main_arg11 (after (s3 (F := Ideal)) (after (s2 (F := Ideal)) (after (s1 (F := Ideal)) V)))).trans (s3_main_arg11 (after (s2 (F := Ideal)) (after (s1 (F := Ideal)) V)))).trans (s2_main_arg11 (after (s1 (F := Ideal)) V))).trans (s1_main_arg11 V))
    ((((s4_main_arg12 (after (s3 (F := Ideal)) (after (s2 (F := Ideal)) (after (s1 (F := Ideal)) V)))).trans (s3_main_arg12 (after (s2 (F := Ideal)) (after (s1 (F := Ideal)) V)))).trans (s2_main_arg12 (after (s1 (F := Ideal)) V))).trans (s1_main_arg12 V))
    ((((s4_main_arg13 (after (s3 (F := Ideal)) (after (s2 (F := Ideal)) (after (s1 (F := Ideal)) V)))).trans (s3_main_arg13 (after (s2 (F := Ideal)) (after (s1 (F := Ideal)) V)))).trans (s2_main_arg13 (after (s1 (F := Ideal)) V))).trans (s1_main_arg13 V))
  have f5 := s6_shift (after (s5 (F := Ideal)) (after (s4 (F := Ideal)) (after (s3 (F := Ideal)) (after (s2 (F := Ideal)) (after (s1 (F := Ideal)) V))))) _ _ _ _ _ _ _ _ _ _ _ _ _ _ e89
  exact s7_v90 (after (s6 (F := Ideal)) (after (s5 (F := Ideal)) (after (s4 (F := Ideal)) (after (s3 (F := Ideal)) (after (s2 (F := Ideal)) (after (s1 (F := Ideal)) V)))))) _ _ _ _ _ _ _ _ _ _ _ _ _ _ f5

end Cert.ReferenceIdeal.Stretch

end
-- ==== Proof.RefRunV.lean ====
/-
  The reference program's run with its result named by the stage.

  @main is a straight line of host operations, so every weakly fair execution terminates with each buffer at the fold of
  the operations' results over its launch contents: the result buffer at the reference's result stage of the arguments
  (the line read in five stretches), each argument as launched (no operation writes one).
-/
import proofs.«122453_j20323785244960_1_alg».proof.Proof.RefOps
import proofs.«122453_j20323785244960_1_alg».proof.Proof.RefStretch

noncomputable section

namespace Cert.ReferenceIdeal.RunValue

open Cert.ReferenceIdeal Cert.ReferenceIdeal.Gen Cert.ReferenceIdeal.Value Idealize.ShloMosaic Idealize.ShloMosaic.TcCoe Idealize.SL.Sem Idealize.ShloMosaic.StableHlo

set_option maxRecDepth 16384 in
set_option maxHeartbeats 50000000 in
/-- On every device, from any memory with zero counters: every weakly fair execution of @main terminates with the
    result buffer at the reference's result stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90)
        = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v90).trans (Cert.ReferenceIdeal.Stretch.result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.RunValue

end
-- ==== Proof.lean ====
/-
  The certificate: a two-layer GraphSAGE network with a two-layer head, as three pipelined kernels among host
  gathers and scatter-adds, against its plain reference.

  Both programs compute, for every node, the mean of its in-neighbours' feature rows (a gather along the edge list, a
  scatter-add to the targets, a division by the in-degree floored at one) — in the same host operations, which are
  never opened —, then the layer  max (p / max ‖p‖ ε) 0  of  p = x·Wlᵀ + bl + a·Wrᵀ + br,  twice, then two affine maps
  and a log-softmax taken after subtracting the row's maximum. The kernels do the dense part one block of 5000 node
  rows at a time, with the weights transposed on the host and the biases reshaped to rows; the reference does it on
  whole arrays. Over the extended reals every step is the same function of one node's rows (Proof/Spec.lean): the
  matrix products are the same sums, the block decomposition is a tiling of the rows, and the reference's extra
  maximum with −∞ is absorbed by the fold it is taken with. No law that needs finiteness is used, so the precondition
  is never opened.

  The frames of the two kernel programs are the generated ones; the reference's frame is its run with the result
  dropped; the idealization rewrote nothing, so `preserves` is trivial; `algebraic` puts the two runs side by side, both
  results being the reference's result stage of the (agreeing) arguments.
-/
import proofs.«122453_j20323785244960_1_alg».proof.Defs
import proofs.«122453_j20323785244960_1_alg».proof.Proof.Gen.Kernel
import proofs.«122453_j20323785244960_1_alg».proof.Proof.Gen.Kernel.Skeleton
import proofs.«122453_j20323785244960_1_alg».proof.Proof.Gen.Kernel.Launch
import proofs.«122453_j20323785244960_1_alg».proof.Proof.Gen.Kernel.Points
import proofs.«122453_j20323785244960_1_alg».proof.Proof.Gen.Kernel.Frame
import proofs.«122453_j20323785244960_1_alg».proof.Proof.Gen.KernelIdeal
import proofs.«122453_j20323785244960_1_alg».proof.Proof.Gen.KernelIdeal.Skeleton
import proofs.«122453_j20323785244960_1_alg».proof.Proof.Gen.KernelIdeal.Launch
import proofs.«122453_j20323785244960_1_alg».proof.Proof.Gen.KernelIdeal.Points
import proofs.«122453_j20323785244960_1_alg».proof.Proof.Gen.KernelIdeal.Frame
import proofs.«122453_j20323785244960_1_alg».proof.Proof.Gen.ReferenceIdeal
import proofs.«122453_j20323785244960_1_alg».proof.Proof.Gen.Pre_finite_inputs
import proofs.«122453_j20323785244960_1_alg».proof.Proof.KerRun
import proofs.«122453_j20323785244960_1_alg».proof.Proof.KerValue
import proofs.«122453_j20323785244960_1_alg».proof.Proof.RefRunV
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunValue.run m ρ)

theorem preserves : Cert.preserves_Kernel_KernelIdeal := trivial

/-- Both runs end with the result at the reference's result stage of the kernel program's arguments, with which the
    reference's agree. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.KerValue.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.RunValue.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
